-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x16x64 : Shape := ⟨3, ![1024, 16, 64]⟩
abbrev S16x1024x64 : Shape := ⟨3, ![16, 1024, 64]⟩
abbrev S4096x1024 : Shape := ⟨2, ![4096, 1024]⟩
abbrev S1x3072 : Shape := ⟨2, ![1, 3072]⟩
abbrev S4096x3072 : Shape := ⟨2, ![4096, 3072]⟩
abbrev S256x1024 : Shape := ⟨2, ![256, 1024]⟩
abbrev S256x3072 : Shape := ⟨2, ![256, 3072]⟩
abbrev S2x2048x3072 : Shape := ⟨3, ![2, 2048, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S1x1x256x64 : Shape := ⟨4, ![1, 1, 256, 64]⟩
abbrev S1x1x2048x64 : Shape := ⟨4, ![1, 1, 2048, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩
abbrev S1x1x512x64 : Shape := ⟨4, ![1, 1, 512, 64]⟩
abbrev S1x1024x64 : Shape := ⟨3, ![1, 1024, 64]⟩
abbrev S1x512x1024 : Shape := ⟨3, ![1, 512, 1024]⟩
abbrev S512x1024 : Shape := ⟨2, ![512, 1024]⟩
abbrev S512x64 : Shape := ⟨2, ![512, 64]⟩
abbrev S1024x64 : Shape := ⟨2, ![1024, 64]⟩

abbrev nBuf : Space → Nat
  | .hbm => 21
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072x1024, .bf16⟩
  | .hbm, ⟨6, _⟩ => ⟨S1024x1024, .bf16⟩
  | .hbm, ⟨7, _⟩ => ⟨S1024x16x64, .bf16⟩
  | .hbm, ⟨8, _⟩ => ⟨S16x1024x64, .bf16⟩
  | .hbm, ⟨9, _⟩ => ⟨S4096x1024, .f32⟩
  | .hbm, ⟨10, _⟩ => ⟨S1x3072, .f32⟩
  | .hbm, ⟨11, _⟩ => ⟨S4096x3072, .bf16⟩
  | .hbm, ⟨12, _⟩ => ⟨S2x2048x3072, .bf16⟩
  | .hbm, ⟨13, _⟩ => ⟨S2x2048x16x192, .bf16⟩
  | .hbm, ⟨14, _⟩ => ⟨S2x16x2048x192, .bf16⟩
  | .hbm, ⟨15, _⟩ => ⟨S2x16x2048x64, .bf16⟩
  | .hbm, ⟨16, _⟩ => ⟨S2x16x2048x64, .bf16⟩
  | .hbm, ⟨17, _⟩ => ⟨S2x16x2048x64, .bf16⟩
  | .hbm, ⟨18, _⟩ => ⟨S2x16x2048x64, .bf16⟩
  | .hbm, ⟨19, _⟩ => ⟨S1x1024, .f32⟩
  | .hbm, ⟨20, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S1x3072, .f32⟩
  | .local _ .vmem, ⟨4, _⟩ => ⟨S256x3072, .bf16⟩
  | .local _ .vmem, ⟨5, _⟩ => ⟨S256x3072, .bf16⟩
  | .local _ .vmem, ⟨6, _⟩ => ⟨S1x1x256x64, .bf16⟩
  | .local _ .vmem, ⟨7, _⟩ => ⟨S1x1x256x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x256x64, .bf16⟩
  | .local _ .vmem, ⟨13, _⟩ => ⟨S1x1x256x64, .bf16⟩
  | .local _ .vmem, ⟨14, _⟩ => ⟨S1x1x512x64, .bf16⟩
  | .local _ .vmem, ⟨15, _⟩ => ⟨S1x1x512x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 16, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![2, 4, 16], ![false, false, false]⟩

def k2_cond2 (i : grid2.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_11 : BitVec 32 := 0#32
  let v15 : BitVec 1 := Scalar.cmpi .ne v14 c0_i32_11
  v15

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  shapeCasts_S1024x1024_S1024x16x64 : S1024x1024.ShapeCasts S1024x16x64
  transposes_S1024x16x64_S16x1024x64_1_0_2 : S1024x16x64.Transposes [1, 0, 2] S16x1024x64
  shapeCasts_S2x2048x1024_S4096x1024 : S2x2048x1024.ShapeCasts S4096x1024
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S4096x3072_S2x2048x3072 : S4096x3072.ShapeCasts S2x2048x3072
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  packedbf16_S1x1x256x64_S1x1x256x64_0_0_0_0 : (Rect.unit (s := S1x1x256x64) ![0, 0, 0, 0] S1x1x256x64.size inb_S1x1x256x64_S1x1x256x64_0_0_0_0).PackedRows (EltTy.packing .bf16)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S256x1024_S3072x1024_S256x3072_1_1_0_0_n_n_wf : DotDims.WF S256x1024 S3072x1024 S256x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x64_S1024x64_S512x1024_1_1_0_0_n_n_wf : DotDims.WF S512x64 S1024x64 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S4096x3072.size a
  hwx0_3 : ∀ i : grid0.Coords, EltTy.bits .bf16 = 32 ∨ (Rect.block (s := S4096x3072) S256x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256x64.size a ≤ S2x16x2048x64.size a
  hwx1_0 : ∀ i : grid1.Coords, EltTy.bits .bf16 = 32 ∨ (Rect.block (s := S2x16x2048x64) S1x1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256x64.size a ≤ S2x16x2048x64.size a
  hwx1_3 : ∀ i : grid1.Coords, EltTy.bits .bf16 = 32 ∨ (Rect.block (s := S2x16x2048x64) S1x1x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x512x64.size a ≤ S2x16x2048x64.size a
  hwx2_0 : ∀ i : grid2.Coords, EltTy.bits .bf16 = 32 ∨ (Rect.block (s := S2x16x2048x64) S1x1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S16x1024x64.size a
  hwx2_1 : ∀ i : grid2.Coords, EltTy.bits .bf16 = 32 ∨ (Rect.block (s := S16x1024x64) S1x1024x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S2x2048x1024.size a
  hwx2_3 : ∀ i : grid2.Coords, EltTy.bits .f32 = 32 ∨ (Rect.block (s := S2x2048x1024) S1x512x1024.size (cc2_transform_3 i) (hinb2_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf

abbrev win0_0 : Pipeline.Window sig grid0 :=
  Pipeline.Window.ofSpec (Memref.whole main_v4) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S1x1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KR0.lean ====
import proofs.«166712_j30709016166637_2_alg».proof.Proof.Gen.Kernel.Launch
import proofs.«166712_j30709016166637_2_alg».proof.Proof.Gen.Kernel.Skeleton
import proofs.«166712_j30709016166637_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 0: the fused query/key/value projection, one block of 256 rows per grid point

At each of the 16 grid points the body reads a 256×1024 block of rows of the activations, the whole 3072×1024 weight
(already rounded to bf16) and the whole 1×3072 bias, and writes the 256×3072 block `round_bf16 (round_bf16 x · Wᵀ + b)` over
the whole output buffer. The weight and the bias are copied in once, at the first point, and stay in their buffers;
the activations and the output move with the point. Nothing is kept from one point to the next.
Everything here is stated at arbitrary region-entry contents `V` of the TensorCore's buffers and at any number model `F`. -/

/-! ## The windows' blocks -/

/-- The block of window `w` at grid point `t`: the window's slice of its array, the array taken at the region-entry
    contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever staging buffer the pipeline is on at point `t`, the body finds the window's block of
    that point in it, whether the block was copied in at `t` or at an earlier point with the same block index (the body
    never writes an input buffer, and the window is neither cut nor idle). Stated for any proof data whose array 0 is
    the entry contents and whose `after 0` is the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever staging buffer the pipeline is on at point `t`, the body finds the window's block of
    that point in it, whether the block was copied in at `t` or at an earlier point with the same block index (the body
    never writes an input buffer, and the window is neither cut nor idle). Stated for any proof data whose array 1 is
    the entry contents and whose `after 1` is the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever staging buffer the pipeline is on at point `t`, the body finds the window's block of
    that point in it, whether the block was copied in at `t` or at an earlier point with the same block index (the body
    never writes an input buffer, and the window is neither cut nor idle). Stated for any proof data whose array 2 is
    the entry contents and whose `after 2` is the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S1x3072 := Rect.unit (s := S1x3072) ![0, 0] S1x3072.size inb_S1x3072_S1x3072_0_0
abbrev r0_3 : Rect S256x3072 := Rect.unit (s := S256x3072) ![0, 0] S256x3072.size inb_S256x3072_S256x3072_0_0

/-! ## The output buffer after the body -/

/-- The output window's staging buffer after the body, as a function of the three input blocks: the single store,
    of the payload computed from the three whole-buffer loads, laid over the whole buffer. -/
def out0_3 (x0 : Vec F S256x1024 .f32) (x1 : Vec F S3072x1024 .bf16) (x2 : Vec F S1x3072 .f32) : Vec F S256x3072 .bf16 :=
  View.canon [⟨r0_3, k0_pay1 (View.ld x0 r0_0) (View.ld x1 r0_1) (View.ld x2 r0_2)⟩]

/-- The one stored rectangle is the whole buffer, so every index of the buffer lies in it. -/
theorem cover0_3 (p0 : Vec F S256x3072 .bf16) (y : S256x3072.Idx) :
    ∃ pc ∈ ([⟨r0_3, p0⟩] : List (View.Piece (Elt F) S256x3072 .bf16)), y ∈ pc.1.set :=
  View.cover_of_tiled [⟨r0_3, p0⟩] S256x3072.size (by rfl) y

/-! ## The body's triple -/

set_option maxHeartbeats 1000000 in
/-- The body run on four whole buffers — the three inputs holding `x0`, `x1`, `x2`, the output holding anything —
    reaches any continuation that accepts the inputs unchanged and the output at `out0_3 x0 x1 x2`: three loads, the
    load of the output (whose value is dropped), and one store over the whole output. -/
theorem sound_kernel0 (c : Dev nD) (E : Set ℕ) (i : grid0.Coords)
    (arg0 : Memref sig .tc .vmem S256x1024 .f32) (harg0 : arg0.IsWhole) (arg1 : Memref sig .tc .vmem S3072x1024 .bf16) (harg1 : arg1.IsWhole)
    (arg2 : Memref sig .tc .vmem S1x3072 .f32) (harg2 : arg2.IsWhole) (arg3 : Memref sig .tc .vmem S256x3072 .bf16) (harg3 : arg3.IsWhole)
    (x0 : Vec F S256x1024 .f32) (x1 : Vec F S3072x1024 .bf16) (x2 : Vec F S1x3072 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__qkv_kernel i arg0 harg0 arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: every window's array at the entry contents `V`; after the body at
    point `t` each input buffer still at its block and the output buffer at `out0_3` of the three blocks; the
    invariant is the one that only carries the untouched scoped buffers and the generator register; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- What the body finds in each input's current buffer: the window's block at that point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is handed at point `t`: the invariant, the core's debt, and the four current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's debt are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
import proofs.«166712_j30709016166637_2_alg».proof.Proof.Gen.Kernel.Launch
import proofs.«166712_j30709016166637_2_alg».proof.Proof.Gen.Kernel.Skeleton
import proofs.«166712_j30709016166637_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 1: softmax attention of one block of 256 queries against all 2048 keys of one head

The grid is batch × head × query block, 2 × 16 × 8 = 256 points, the query block running fastest. At each point the
body reads the 256×64 block of queries and the whole 2048×64 keys and values of the point's batch and head, and writes
`round_bf16 (round_bf16 (softmax (q · kᵀ / 8)) · v)`, the softmax taken along the keys with the row maximum subtracted, over
the whole 256×64 output buffer. The keys and values are copied in when the head changes (every eighth point) and stay
in their buffers over the eight query blocks; the queries and the output move with the point. Nothing is kept from one
point to the next.
Everything here is stated at arbitrary region-entry contents `V` of the TensorCore's buffers and at any number model `F`. -/

/-! ## The windows' blocks -/

/-- The block of window `w` at grid point `t`: the window's slice of its array, the array taken at the region-entry
    contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever staging buffer the pipeline is on at point `t`, the body finds the window's block of
    that point in it, whether the block was copied in at `t` or at an earlier point with the same block index (the body
    never writes an input buffer, and the window is neither cut nor idle). Stated for any proof data whose array 0 is
    the entry contents and whose `after 0` is the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whatever staging buffer the pipeline is on at point `t`, the body finds the window's block of
    that point in it, whether the block was copied in at `t` or at an earlier point with the same block index (the body
    never writes an input buffer, and the window is neither cut nor idle). Stated for any proof data whose array 1 is
    the entry contents and whose `after 1` is the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whatever staging buffer the pipeline is on at point `t`, the body finds the window's block of
    that point in it, whether the block was copied in at `t` or at an earlier point with the same block index (the body
    never writes an input buffer, and the window is neither cut nor idle). Stated for any proof data whose array 2 is
    the entry contents and whose `after 2` is the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each the whole of its buffer -/

abbrev r1_0 : Rect S1x1x256x64 := Rect.unit (s := S1x1x256x64) ![0, 0, 0, 0] S1x1x256x64.size inb_S1x1x256x64_S1x1x256x64_0_0_0_0
abbrev r1_1 : Rect S1x1x2048x64 := Rect.unit (s := S1x1x2048x64) ![0, 0, 0, 0] S1x1x2048x64.size inb_S1x1x2048x64_S1x1x2048x64_0_0_0_0
abbrev r1_2 : Rect S1x1x2048x64 := Rect.unit (s := S1x1x2048x64) ![0, 0, 0, 0] S1x1x2048x64.size inb_S1x1x2048x64_S1x1x2048x64_0_0_0_0
abbrev r1_3 : Rect S1x1x256x64 := Rect.unit (s := S1x1x256x64) ![0, 0, 0, 0] S1x1x256x64.size inb_S1x1x256x64_S1x1x256x64_0_0_0_0

/-! ## The output buffer after the body -/

/-- The output window's staging buffer after the body, as a function of the three input blocks: the single store,
    of the payload computed from the three whole-buffer loads, laid over the whole buffer. -/
def out1_3 (x0 : Vec F S1x1x256x64 .bf16) (x1 : Vec F S1x1x2048x64 .bf16) (x2 : Vec F S1x1x2048x64 .bf16) : Vec F S1x1x256x64 .bf16 :=
  View.canon [⟨r1_3, k1_pay1 (View.ld x0 r1_0) (View.ld x1 r1_1) (View.ld x2 r1_2)⟩]

/-- The one stored rectangle is the whole buffer, so every index of the buffer lies in it. -/
theorem cover1_3 (p0 : Vec F S1x1x256x64 .bf16) (y : S1x1x256x64.Idx) :
    ∃ pc ∈ ([⟨r1_3, p0⟩] : List (View.Piece (Elt F) S1x1x256x64 .bf16)), y ∈ pc.1.set :=
  View.cover_of_tiled [⟨r1_3, p0⟩] S1x1x256x64.size (by rfl) y

/-! ## The body's triple -/

set_option maxHeartbeats 1000000 in
/-- The body run on four whole buffers — the three inputs holding `x0`, `x1`, `x2`, the output holding anything —
    reaches any continuation that accepts the inputs unchanged and the output at `out1_3 x0 x1 x2`: three loads, the
    load of the output (whose value is dropped), and one store over the whole output. -/
theorem sound_kernel1 (c : Dev nD) (E : Set ℕ) (i : grid1.Coords)
    (arg0 : Memref sig .tc .vmem S1x1x256x64 .bf16) (harg0 : arg0.IsWhole) (arg1 : Memref sig .tc .vmem S1x1x2048x64 .bf16) (harg1 : arg1.IsWhole)
    (arg2 : Memref sig .tc .vmem S1x1x2048x64 .bf16) (harg2 : arg2.IsWhole) (arg3 : Memref sig .tc .vmem S1x1x256x64 .bf16) (harg3 : arg3.IsWhole)
    (x0 : Vec F S1x1x256x64 .bf16) (x1 : Vec F S1x1x2048x64 .bf16) (x2 : Vec F S1x1x2048x64 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: every window's array at the entry contents `V`; after the body at
    point `t` each input buffer still at its block and the output buffer at `out1_3` of the three blocks; the
    invariant is the one that only carries the untouched scoped buffers and the generator register; full shares,
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- What the body finds in each input's current buffer: the window's block at that point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

/-- What the body is handed at point `t`: the invariant, the core's debt, and the four current staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the
    core's debt are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KR2Runs.lean ====
import proofs.«166712_j30709016166637_2_alg».proof.Proof.Gen.Kernel.Launch
import proofs.«166712_j30709016166637_2_alg».proof.Proof.Gen.Kernel.Skeleton
import proofs.«166712_j30709016166637_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of the buffer's own extents at offset zero.
Such a load reads the contents; such a store, whatever was stored before it, leaves its payload. -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- A load through the whole-shape rectangle at offset zero reads the contents. -/
theorem ld_whole {S : Shape} {e : EltTy} {off : Fin S.rank → Nat} (h : off = fun _ => 0) (inb : ∀ a, off a + S.size a ≤ S.size a)
    (X : S.Idx → Elt F e) : View.ld X (Rect.unit off S.size inb) = X := by
  subst h; funext x; show X ((Rect.whole S).emb x) = X x; rw [Rect.emb_whole_apply]

/-- A load through the whole-shape rectangle of a whole memref whose contents read `X` reads `X`. -/
theorem readAt_unread_whole {sp : Space} {S : Shape} {e : EltTy} (m : Memref sig .tc sp S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, ld_whole h inb]

/-- What a view reads after a last store through the whole-shape rectangle: that store's payload. -/
theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-! ## The body's two conditionals -/

/-- The first conditional of the body: the last grid coordinate is zero. -/
abbrev cond2_0 (i : grid2.Coords) : Prop := (Scalar.cmpi .ne (Scalar.extui (Scalar.cmpi .eq (BitVec.ofNat 32 (i 2).val) 0#32)) 0#32) = 1#1
/-- The second conditional of the body: the last grid coordinate is fifteen. -/
abbrev cond2_1 (i : grid2.Coords) : Prop := k2_cond2 i = 1#1

/-- The first holds exactly at the points whose position is 0 modulo 16. -/
theorem hcond2_0 : ∀ t : Fin cfg2.N, cond2_0 (grid2.coords t) ↔ t.val % 16 = 0 :=
  (by decide +kernel : ∀ t : Fin grid2.N, cond2_0 (grid2.coords t) ↔ t.val % 16 = 0)
/-- The second holds exactly at the points whose position is 15 modulo 16. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## The body's run in each of its three cases

On whole memrefs: the a-block at `x0`, the w-block at `x1`, the scratch at `xs`. -/

set_option maxHeartbeats 1000000 in
/-- A middle point (neither conditional holds): the scratch `xs` becomes `k2_pay2 x0 x1 xs`; nothing else is touched. -/
theorem run2_mid (c : Dev nD) (i : grid2.Coords)
    (arg3 : Memref sig .tc .vmem S1x1x512x64 .bf16) (harg3 : arg3.IsWhole) (arg4 : Memref sig .tc .vmem S1x1024x64 .bf16) (harg4 : arg4.IsWhole)
    (arg5 : Memref sig .tc .vmem S1x1024 .f32) (harg5 : arg5.IsWhole) (arg6 : Memref sig .tc .vmem S1x512x1024 .f32) (harg6 : arg6.IsWhole)
    (arg7 : Memref sig .tc .vmem S512x1024 .f32) (harg7 : arg7.IsWhole) (hc0 : ¬cond2_0 i) (hc1 : ¬cond2_1 i)
    (x0 : Vec F S1x1x512x64 .bf16) (x1 : Vec F S1x1024x64 .bf16) (xs : Vec F S512x1024 .f32) (E : Set ℕ) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1 ∗ owns (c : Thread nD τ) arg7 fullShare (k2_pay2 x0 x1 xs)) -∗ K ⟨⟩))
      ⊢ wp frame (wpE (defs₀ (F := F)) Variants.none c none) E (cc2__outproj_kernel i arg3 harg3 arg4 harg4 arg5 harg5 arg6 harg6 arg7 harg7) K := by
  simp only [cc2__outproj_kernel_eq_skeleton]; unfold cc2__outproj_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  rw [read_writes_cons_whole _ _ zeros2, readAt_unread_whole arg3 harg3 zeros4, readAt_unread_whole arg4 harg4 zeros3,
    readAt_unread_whole arg7 harg7 zeros2]

set_option maxHeartbeats 1000000 in
/-- A first point of a run of sixteen (the first conditional holds, the second does not): whatever the scratch held,
    it is zeroed (`k2_pay1`) and then becomes `k2_pay2 x0 x1 k2_pay1`; nothing else is touched. -/
theorem run2_first (c : Dev nD) (i : grid2.Coords)
    (arg3 : Memref sig .tc .vmem S1x1x512x64 .bf16) (harg3 : arg3.IsWhole) (arg4 : Memref sig .tc .vmem S1x1024x64 .bf16) (harg4 : arg4.IsWhole)
    (arg5 : Memref sig .tc .vmem S1x1024 .f32) (harg5 : arg5.IsWhole) (arg6 : Memref sig .tc .vmem S1x512x1024 .f32) (harg6 : arg6.IsWhole)
    (arg7 : Memref sig .tc .vmem S512x1024 .f32) (harg7 : arg7.IsWhole) (hc0 : cond2_0 i) (hc1 : ¬cond2_1 i)
    (x0 : Vec F S1x1x512x64 .bf16) (x1 : Vec F S1x1024x64 .bf16) (xs : Vec F S512x1024 .f32) (E : Set ℕ) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1 ∗ owns (c : Thread nD τ) arg7 fullShare (k2_pay2 x0 x1 (k2_pay1 (F := F)))) -∗ K ⟨⟩))
      ⊢ wp frame (wpE (defs₀ (F := F)) Variants.none c none) E (cc2__outproj_kernel i arg3 harg3 arg4 harg4 arg5 harg5 arg6 harg6 arg7 harg7) K := by
  simp only [cc2__outproj_kernel_eq_skeleton]; unfold cc2__outproj_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_run_names
  rw [read_writes_cons_whole _ _ zeros2, readAt_unread_whole arg3 harg3 zeros4, readAt_unread_whole arg4 harg4 zeros3]
  rw [View.readCov_cons_toLoadRect]

set_option maxHeartbeats 1000000 in
/-- A last point of a run of sixteen (the second conditional holds, the first does not): the scratch `xs` becomes
    `k2_pay2 x0 x1 xs`, and the output buffer, whatever it held, is left holding `k2_pay3` of that and the bias row `x2`. -/
theorem run2_last (c : Dev nD) (i : grid2.Coords)
    (arg3 : Memref sig .tc .vmem S1x1x512x64 .bf16) (harg3 : arg3.IsWhole) (arg4 : Memref sig .tc .vmem S1x1024x64 .bf16) (harg4 : arg4.IsWhole)
    (arg5 : Memref sig .tc .vmem S1x1024 .f32) (harg5 : arg5.IsWhole) (arg6 : Memref sig .tc .vmem S1x512x1024 .f32) (harg6 : arg6.IsWhole)
    (arg7 : Memref sig .tc .vmem S512x1024 .f32) (harg7 : arg7.IsWhole) (hc0 : ¬cond2_0 i) (hc1 : cond2_1 i)
    (x0 : Vec F S1x1x512x64 .bf16) (x1 : Vec F S1x1024x64 .bf16) (x2 : Vec F S1x1024 .f32) (xo : Vec F S1x512x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 x0 x1 xs) x2) ∗ owns (c : Thread nD τ) arg7 fullShare (k2_pay2 x0 x1 xs)) -∗ K ⟨⟩))
      ⊢ wp frame (wpE (defs₀ (F := F)) Variants.none c none) E (cc2__outproj_kernel i arg3 harg3 arg4 harg4 arg5 harg5 arg6 harg6 arg7 harg7) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_run_names
    rw [read_writes_cons_whole _ _ zeros3, readAt_unread_whole arg5 harg5 zeros2, View.readCov_cons_toLoadRect,
      readAt_unread_whole arg3 harg3 zeros4, readAt_unread_whole arg4 harg4 zeros3, readAt_unread_whole arg7 harg7 zeros2]
  iexists _; isplitr
  swap; · iexact HS
  ipureintro
  sl_unfold_run_names
  rw [read_writes_cons_whole _ _ zeros2, readAt_unread_whole arg3 harg3 zeros4, readAt_unread_whole arg4 harg4 zeros3,
    readAt_unread_whole arg7 harg7 zeros2]

end Cert.Kernel.Hand

end
-- ==== Proof.KR2.lean ====
import proofs.«166712_j30709016166637_2_alg».proof.Proof.Gen.Kernel.Launch
import proofs.«166712_j30709016166637_2_alg».proof.Proof.Gen.Kernel.Skeleton
import proofs.«166712_j30709016166637_2_alg».proof.Proof.Gen.Kernel.Points
import proofs.«166712_j30709016166637_2_alg».proof.Proof.KR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator

The scratch after the body at position `n`: at a position that is 0 modulo 16 the product of that point's blocks added to
the zero block; at any other, added to what the position before left. -/

def acc2 (c : Dev nD) : (n : ℕ) → n < cfg2.N → Vec F S512x1024 .f32
  | 0, hn => k2_pay2 (iblk2 V c 0 ⟨0, hn⟩) (iblk2 V c 1 ⟨0, hn⟩) (k2_pay1 (F := F))
  | n + 1, hn =>
    if (n + 1) % 16 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

theorem acc2_first (c : Dev nD) (t : Fin cfg2.N) (h : t.val % 16 = 0) :
    acc2 V c t.val t.isLt = k2_pay2 (iblk2 V c 0 t) (iblk2 V c 1 t) (k2_pay1 (F := F)) := by
  obtain ⟨n, hn⟩ := t
  cases n with
  | zero => rfl
  | succ n => exact if_pos h

theorem acc2_step (c : Dev nD) (t : Fin cfg2.N) (h : t.val % 16 ≠ 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The scratch operand: a whole scoped buffer of the kernel's own, passed beside the windows. -/
abbrev scM2 : Memref sig .tc .vmem S512x1024 .f32 := Memref.whole cc2_scratch0

/-- The TensorCore's scoped buffers that are no staging buffer of this region: those of the other two regions, each at some
    contents, and the scratch, in the state `X`. -/
def rest2 (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ X)

/-- The scratch can be taken out of it and put back in another state. -/
theorem rest2_swap (c : Dev nD) (X X' : sProp 𝕄) : rest2 (F := F) c X ⊢ iprop(X ∗ (X' -∗ rest2 (F := F) c X')) := by
  unfold rest2
  iintro ⟨R1, R2, R3, R4, R5, R6, R7, R8, R9, R10, R11, R12, R13, R14, HX⟩
  isplitl [HX]
  · iexact HX
  iintro HX'
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact HX'

/-- The region invariant as the launch hands it over: the scratch at some contents. -/
theorem PhiA2_eq (c : Dev nD) :
    (Pipeline.ΦA spec2 c : sProp 𝕄) = iprop(rest2 (F := F) c iprop(∃ d, owns (c : Thread nD τ) scM2 fullShare d) ∗ (∃ r, prngReg c r)) := by
  unfold Pipeline.ΦA rest2; rw [scopedRest2_eq]; simp only [scM2, owns_whole]; try rfl

/-- The region invariant before position `n`: before the first point the launch's; afterwards the scratch holds what the
    position before left. -/
def PhiS2 (c : Dev nD) : (n : ℕ) → n ≤ cfg2.N → sProp 𝕄
  | 0, _ => Pipeline.ΦA spec2 c
  | n + 1, hn => iprop(rest2 (F := F) c (owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 (F := F) c (owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop(rest2 (F := F) c (owns (c : Thread nD τ) scM2 fullShare (acc2 V c (n - 1) (by omega))) ∗ (∃ r, prngReg c r)) := by
  cases n with
  | zero => exact absurd rfl hz
  | succ n => rfl

/-- At any position the scratch holds something. -/
theorem PhiS2_any (c : Dev nD) (n : ℕ) (h : n ≤ cfg2.N) :
    PhiS2 V c n h ⊢ iprop(rest2 (F := F) c iprop(∃ d, owns (c : Thread nD τ) scM2 fullShare d) ∗ (∃ r, prngReg c r)) := by
  by_cases hz : n = 0
  · rw [PhiS2_zero V c n h hz, PhiA2_eq]; try exact Idealize.SL.BI.Entails.refl _
  · rw [PhiS2_pos V c n h hz]
    iintro ⟨HR, Hg⟩
    isplitl [HR]
    · icases (rest2_swap (F := F) c _ (iprop(∃ d, owns (c : Thread nD τ) scM2 fullShare d))) $$ HR with ⟨HS, Hw⟩
      iapply Hw
      iexists _; iexact HS
    iexact Hg

/-! ## The proof data -/

/-- The proof data of the region on core `c`: the arrays as the region finds them; after the body at point `t` each input's
    buffer at its block, and the output's at the accumulator of `t` with the bias row added (what the body stores at the
    points that are 15 modulo 16; at the other points the window is idle and this value is not consulted); the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (acc2 V c t.val t.isLt) (iblk2 V c 2 t) := by dsimp only [dat2]
theorem after2_3_last (c : Dev nD) (t : Fin cfg2.N) (h : t.val % 16 = 15) :
    (dat2 V c).after 3 t = k2_pay3 (acc2 V c t.val t.isLt) (iblk2 V c 2 t) := after2_3 V c t

/-- Each input's current staging buffer holds its block at every point, fetched there or not: where it is not fetched the
    block index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Away from the points that are 15 modulo 16 the output window is idle, -/
theorem idleAt2_3 : ∀ t : Fin cfg2.N, ¬cond2_1 (grid2.coords t) → cfg2.idle 3 (grid2.coords t) = true := by decide +kernel
/-- and is not written back; -/
theorem noFlush2_3 (t : Fin cfg2.N) (h : ¬t.val % 16 = 15) : (cfg2.win 3).flush t = false :=
  Bool.eq_false_iff.mpr fun hf => h ((flush2_3 t).mp hf)
/-- at those points it is live. -/
theorem liveAt2_3 : ∀ t : Fin cfg2.N, cond2_1 (grid2.coords t) → cfg2.idle 3 (grid2.coords t) = false := by decide +kernel

/-! ## The body obligation -/

/-- Each window's current staging memref at point `t`, as the pipeline passes it to the body, and its wholeness. -/
abbrev ms2_0 (t : Fin cfg2.N) : Memref sig .tc .vmem S1x1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x1024 .f32 := win2_3.stage (cfg2.slots t 3)
abbrev hs2_3 (t : Fin cfg2.N) : (ms2_3 t).IsWhole := hstage2_3 ((cfg2.slots t 3).cast nbuf2_3)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the position modulo 16 says which of the three cases the
    point is in. The invariant hands the body the scratch (at anything at a first point of a run of sixteen, else at what
    the point before left) and takes it back at this point's accumulator. Away from the last point of a run the output
    buffer is handed back untouched; there it is left holding the accumulator with the bias row added. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 128 := lt_of_lt_of_eq t.isLt (show cfg2.N = 128 from N_2)
  rw [PhiS2_castSucc V c t]
  by_cases h0 : t.val % 16 = 0
  · have h15 : ¬t.val % 16 = 15 := by omega
    rw [Dat.leavesExact_idle (dat2 V c) 3 t (idleAt2_3 t (fun h => h15 ((hcond2_1 t).mp h))) (noFlush2_3 t h15)]
    rw [acc2_first V c t h0]
    iintro ⟨HP, Ho, ⟨%d0, H0⟩, ⟨%d1, H1⟩, ⟨%d2, H2⟩, H3⟩
    icases (PhiS2_any V c _ _) $$ HP with ⟨HR, Hg⟩
    icases (rest2_swap (F := F) c _ (owns (c : Thread nD τ) scM2 fullShare (k2_pay2 (iblk2 V c 0 t) (iblk2 V c 1 t) (k2_pay1 (F := F))))) $$ HR with ⟨⟨%xs, HS⟩, Hw⟩
    iapply (run2_first c (grid2.coords t) _ _ _ _ _ _ _ _ _ _ ((hcond2_0 t).mpr h0) (fun h => h15 ((hcond2_1 t).mp h)) (iblk2 V c 0 t) (iblk2 V c 1 t) xs Set.univ _)
    isplitl [H0]; · iexact H0
    isplitl [H1]; · iexact H1
    isplitl [HS]; · iexact HS
    iintro ⟨H0, H1, HS⟩
    isplitl [HS Hw Hg]
    · isplitl [HS Hw]
      · iapply Hw; iexact HS
      iexact Hg
    isplitl [Ho]; · iexact Ho
    isplitl [H0]; · iexact H0
    isplitl [H1]; · iexact H1
    isplitl [H2]; · iexact H2
    iexact H3
  · have hz : t.val ≠ 0 := by omega
    rw [PhiS2_pos V c _ _ hz]
    by_cases h15 : t.val % 16 = 15
    · rw [show (dat2 V c).leavesExact 3 t = owns (c : Thread nD τ) (ms2_3 t) fullShare ((dat2 V c).after 3 t) from by
        unfold Dat.leavesExact; rw [liveAt2_3 t ((hcond2_1 t).mpr h15)], after2_3, acc2_step V c t h0]
      generalize acc2 V c (t.val - 1) (Nat.lt_of_le_of_lt (Nat.sub_le _ _) t.isLt) = xs
      iintro ⟨⟨HR, Hg⟩, Ho, ⟨%d0, H0⟩, ⟨%d1, H1⟩, ⟨%d2, H2⟩, ⟨%d3, H3⟩⟩
      icases (rest2_swap (F := F) c _ (owns (c : Thread nD τ) scM2 fullShare (k2_pay2 (iblk2 V c 0 t) (iblk2 V c 1 t) xs))) $$ HR with ⟨HS, Hw⟩
      iapply (run2_last c (grid2.coords t) _ _ _ _ _ _ _ _ _ _ (fun h => h0 ((hcond2_0 t).mp h)) ((hcond2_1 t).mpr h15) (iblk2 V c 0 t) (iblk2 V c 1 t) (iblk2 V c 2 t) _ xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hw Hg]
      · isplitl [HS Hw]
        · iapply Hw; iexact HS
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h15 ((hcond2_1 t).mp h))) (noFlush2_3 t h15), acc2_step V c t h0]
      generalize acc2 V c (t.val - 1) (Nat.lt_of_le_of_lt (Nat.sub_le _ _) t.isLt) = xs
      iintro ⟨⟨HR, Hg⟩, Ho, ⟨%d0, H0⟩, ⟨%d1, H1⟩, ⟨%d2, H2⟩, H3⟩
      icases (rest2_swap (F := F) c _ (owns (c : Thread nD τ) scM2 fullShare (k2_pay2 (iblk2 V c 0 t) (iblk2 V c 1 t) xs))) $$ HR with ⟨HS, Hw⟩
      iapply (run2_mid c (grid2.coords t) _ _ _ _ _ _ _ _ _ _ (fun h => h0 ((hcond2_0 t).mp h)) (fun h => h15 ((hcond2_1 t).mp h)) (iblk2 V c 0 t) (iblk2 V c 1 t) xs Set.univ _)
      isplitl [H0]; · iexact H0
      isplitl [H1]; · iexact H1
      isplitl [HS]; · iexact HS
      iintro ⟨H0, H1, HS⟩
      isplitl [HS Hw Hg]
      · isplitl [HS Hw]
        · iapply Hw; iexact HS
        iexact Hg
      isplitl [Ho]; · iexact Ho
      isplitl [H0]; · iexact H0
      isplitl [H1]; · iexact H1
      isplitl [H2]; · iexact H2
      iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: what the scratch holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Cert.Kernel.Hand

end
-- ==== Proof.KRun.lean ====
/-
  The run of the whole program, at any float instance: the buffer contents at every boundary between a stretch
  of host operations and a kernel region, folded from the launch memory; each region's proof data at the contents
  it is entered from; the three regions as segments; and the run itself — every weakly fair execution terminates
  and every unscoped buffer ends at the last boundary's contents.  From it: the argument arrays end as launched
  (no host operation writes one and no region has one among its arrays), and the result array ends at what the
  third region's write-backs leave.
-/
import proofs.«166712_j30709016166637_2_alg».proof.Proof.KR0
import proofs.«166712_j30709016166637_2_alg».proof.Proof.KR1
import proofs.«166712_j30709016166637_2_alg».proof.Proof.KR2
import proofs.«166712_j30709016166637_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first stretch of host operations: what the projection region is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch: what the attention region is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch: what the output-projection region is entered from. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the output-projection region: the contents the program returns with. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## A buffer that no stretch writes and no region has among its arrays ends as launched -/

/-- A reference outside what the three stretches write and outside every region's arrays keeps its launch contents. -/
theorem W6_kept (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m c (Proc.devRef .tc b) = m ((c : Thread nD τ).loc b) :=
  calc W6 m c (Proc.devRef .tc b)
    _ = W5 m c (Proc.devRef .tc b) := W6_of_ne m c b a2
    _ = W4 m c (Proc.devRef .tc b) := StableHlo.after_of_writes_sub hostOps2 _ hostOps2_writes h2
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

theorem W6_main_arg0 (c : Dev nD) : W6 m c (Proc.devRef .tc main_arg0) = m ((c : Thread nD τ).loc main_arg0) :=
  W6_kept m c main_arg0 (by decide) (by decide) (by decide) (by decide) (by decide) (by decide)
theorem W6_main_arg1 (c : Dev nD) : W6 m c (Proc.devRef .tc main_arg1) = m ((c : Thread nD τ).loc main_arg1) :=
  W6_kept m c main_arg1 (by decide) (by decide) (by decide) (by decide) (by decide) (by decide)
theorem W6_main_arg2 (c : Dev nD) : W6 m c (Proc.devRef .tc main_arg2) = m ((c : Thread nD τ).loc main_arg2) :=
  W6_kept m c main_arg2 (by decide) (by decide) (by decide) (by decide) (by decide) (by decide)
theorem W6_main_arg3 (c : Dev nD) : W6 m c (Proc.devRef .tc main_arg3) = m ((c : Thread nD τ).loc main_arg3) :=
  W6_kept m c main_arg3 (by decide) (by decide) (by decide) (by decide) (by decide) (by decide)
theorem W6_main_arg4 (c : Dev nD) : W6 m c (Proc.devRef .tc main_arg4) = m ((c : Thread nD τ).loc main_arg4) :=
  W6_kept m c main_arg4 (by decide) (by decide) (by decide) (by decide) (by decide) (by decide)

/-- The result array ends at what the third region's write-backs leave in its output window's array. -/
theorem W6_result (c : Dev nD) : W6 m c (Proc.devRef .tc main_v15) = (dat2 (V5 m) c).arrAt 3 cfg2.N :=
  W6_arr m c 3

/-! ## The proof data family and the thread state -/

abbrev adm' : (p : Fin 3) → (pcfgs (F := F) p).Adm := fun p => (cfgs p).toPCfg_adm
/-- Every pipeline's proof data, each at the contents its region is entered from. -/
def pdats : (p : Fin 3) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 as a segment: entered from every unscoped buffer at the boundary's contents, left at the next boundary's;
    its arrays are split out of the unscoped buffers and put back at what the pipeline leaves; the generator register
    goes into the region invariant and comes back; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the boundary's contents, left at the next boundary's;
    its arrays are split out of the unscoped buffers and put back at what the pipeline leaves; the generator register
    goes into the region invariant and comes back; nothing is owed; the kernel has no semaphore of its own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the boundary's contents, left at the next boundary's;
    its arrays are split out of the unscoped buffers and put back at what the pipeline leaves; the generator register
    goes into the region invariant and comes back; nothing is owed; the kernel has no semaphore of its own. -/
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 := hin2 (V5 m) c
    unfold Pipeline.ΦA at h2
    change _ ⊢ (dat2 (V5 m) c).Φ 0
    iintro ⟨Hp, -, Hr⟩
    iapply h2
    isplitl [Hr]; · iexact Hr
    iexact Hp
  hout c := by
    rw [Pipeline.ownSems0_none]
    have h2 := hout2 (V5 m) c
    unfold Pipeline.ΦA at h2
    change (dat2 (V5 m) c).Φ (Fin.last cfg2.N) ⊢ _
    iintro HΦ
    ihave H := h2 $$ HΦ
    icases H with ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The six segments in order: a host segment per stretch from its boundary's contents, a region per kernel call. -/
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run m ρ)

/-- The run with the result named: the result array ends at what the third region's write-backs leave, the
    argument arrays as launched. -/
theorem run_result : θ_run defs (onTc (τ := τ) (main (F := F))) ⟨m, fun _ => 0, ρ⟩ (fun r => ∀ c : Dev nD,
      r.2.mem ((c.tc : Thread nD τ).loc main_v15) = (dat2 (V5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v15 (by decide))).trans (W6_result m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run m ρ)

end Cert.Kernel.Hand

end
-- ==== Proof.KiR0.lean ====
import proofs.«166712_j30709016166637_2_alg».proof.Proof.Gen.KernelIdeal.Launch
import proofs.«166712_j30709016166637_2_alg».proof.Proof.Gen.KernelIdeal.Skeleton
import proofs.«166712_j30709016166637_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 0: the fused query/key/value projection, one block of 256 rows per grid point

At each of the 16 grid points the body reads a 256×1024 block of rows of the activations, the whole 3072×1024 weight
(already rounded to bf16) and the whole 1×3072 bias, and writes the 256×3072 block `round_bf16 (round_bf16 x · Wᵀ + b)` over
the whole output buffer. The weight and the bias are copied in once, at the first point, and stay in their buffers;
the activations and the output move with the point. Nothing is kept from one point to the next.
Everything here is stated at arbitrary region-entry contents `V` of the TensorCore's buffers and at any number model `F`. -/

/-! ## The windows' blocks -/

/-- The block of window `w` at grid point `t`: the window's slice of its array, the array taken at the region-entry
    contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever staging buffer the pipeline is on at point `t`, the body finds the window's block of
    that point in it, whether the block was copied in at `t` or at an earlier point with the same block index (the body
    never writes an input buffer, and the window is neither cut nor idle). Stated for any proof data whose array 0 is
    the entry contents and whose `after 0` is the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever staging buffer the pipeline is on at point `t`, the body finds the window's block of
    that point in it, whether the block was copied in at `t` or at an earlier point with the same block index (the body
    never writes an input buffer, and the window is neither cut nor idle). Stated for any proof data whose array 1 is
    the entry contents and whose `after 1` is the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever staging buffer the pipeline is on at point `t`, the body finds the window's block of
    that point in it, whether the block was copied in at `t` or at an earlier point with the same block index (the body
    never writes an input buffer, and the window is neither cut nor idle). Stated for any proof data whose array 2 is
    the entry contents and whose `after 2` is the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S1x3072 := Rect.unit (s := S1x3072) ![0, 0] S1x3072.size inb_S1x3072_S1x3072_0_0
abbrev r0_3 : Rect S256x3072 := Rect.unit (s := S256x3072) ![0, 0] S256x3072.size inb_S256x3072_S256x3072_0_0

/-! ## The output buffer after the body -/

/-- The output window's staging buffer after the body, as a function of the three input blocks: the single store,
    of the payload computed from the three whole-buffer loads, laid over the whole buffer. -/
def out0_3 (x0 : Vec F S256x1024 .f32) (x1 : Vec F S3072x1024 .bf16) (x2 : Vec F S1x3072 .f32) : Vec F S256x3072 .bf16 :=
  View.canon [⟨r0_3, k0_pay1 (View.ld x0 r0_0) (View.ld x1 r0_1) (View.ld x2 r0_2)⟩]

/-- The one stored rectangle is the whole buffer, so every index of the buffer lies in it. -/
theorem cover0_3 (p0 : Vec F S256x3072 .bf16) (y : S256x3072.Idx) :
    ∃ pc ∈ ([⟨r0_3, p0⟩] : List (View.Piece (Elt F) S256x3072 .bf16)), y ∈ pc.1.set :=
  View.cover_of_tiled [⟨r0_3, p0⟩] S256x3072.size (by rfl) y

/-! ## The body's triple -/

set_option maxHeartbeats 1000000 in
/-- The body run on four whole buffers — the three inputs holding `x0`, `x1`, `x2`, the output holding anything —
    reaches any continuation that accepts the inputs unchanged and the output at `out0_3 x0 x1 x2`: three loads, the
    load of the output (whose value is dropped), and one store over the whole output. -/
theorem sound_kernel0 (c : Dev nD) (E : Set ℕ) (i : grid0.Coords)
    (arg0 : Memref sig .tc .vmem S256x1024 .f32) (harg0 : arg0.IsWhole) (arg1 : Memref sig .tc .vmem S3072x1024 .bf16) (harg1 : arg1.IsWhole)
    (arg2 : Memref sig .tc .vmem S1x3072 .f32) (harg2 : arg2.IsWhole) (arg3 : Memref sig .tc .vmem S256x3072 .bf16) (harg3 : arg3.IsWhole)
    (x0 : Vec F S256x1024 .f32) (x1 : Vec F S3072x1024 .bf16) (x2 : Vec F S1x3072 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__qkv_kernel i arg0 harg0 arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: every window's array at the entry contents `V`; after the body at
    point `t` each input buffer still at its block and the output buffer at `out0_3` of the three blocks; the
    invariant is the one that only carries the untouched scoped buffers and the generator register; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- What the body finds in each input's current buffer: the window's block at that point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is handed at point `t`: the invariant, the core's debt, and the four current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's debt are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
import proofs.«166712_j30709016166637_2_alg».proof.Proof.Gen.KernelIdeal.Launch
import proofs.«166712_j30709016166637_2_alg».proof.Proof.Gen.KernelIdeal.Skeleton
import proofs.«166712_j30709016166637_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 1: softmax attention of one block of 256 queries against all 2048 keys of one head

The grid is batch × head × query block, 2 × 16 × 8 = 256 points, the query block running fastest. At each point the
body reads the 256×64 block of queries and the whole 2048×64 keys and values of the point's batch and head, and writes
`round_bf16 (round_bf16 (softmax (q · kᵀ / 8)) · v)`, the softmax taken along the keys with the row maximum subtracted, over
the whole 256×64 output buffer. The keys and values are copied in when the head changes (every eighth point) and stay
in their buffers over the eight query blocks; the queries and the output move with the point. Nothing is kept from one
point to the next.
Everything here is stated at arbitrary region-entry contents `V` of the TensorCore's buffers and at any number model `F`. -/

/-! ## The windows' blocks -/

/-- The block of window `w` at grid point `t`: the window's slice of its array, the array taken at the region-entry
    contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever staging buffer the pipeline is on at point `t`, the body finds the window's block of
    that point in it, whether the block was copied in at `t` or at an earlier point with the same block index (the body
    never writes an input buffer, and the window is neither cut nor idle). Stated for any proof data whose array 0 is
    the entry contents and whose `after 0` is the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whatever staging buffer the pipeline is on at point `t`, the body finds the window's block of
    that point in it, whether the block was copied in at `t` or at an earlier point with the same block index (the body
    never writes an input buffer, and the window is neither cut nor idle). Stated for any proof data whose array 1 is
    the entry contents and whose `after 1` is the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whatever staging buffer the pipeline is on at point `t`, the body finds the window's block of
    that point in it, whether the block was copied in at `t` or at an earlier point with the same block index (the body
    never writes an input buffer, and the window is neither cut nor idle). Stated for any proof data whose array 2 is
    the entry contents and whose `after 2` is the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each the whole of its buffer -/

abbrev r1_0 : Rect S1x1x256x64 := Rect.unit (s := S1x1x256x64) ![0, 0, 0, 0] S1x1x256x64.size inb_S1x1x256x64_S1x1x256x64_0_0_0_0
abbrev r1_1 : Rect S1x1x2048x64 := Rect.unit (s := S1x1x2048x64) ![0, 0, 0, 0] S1x1x2048x64.size inb_S1x1x2048x64_S1x1x2048x64_0_0_0_0
abbrev r1_2 : Rect S1x1x2048x64 := Rect.unit (s := S1x1x2048x64) ![0, 0, 0, 0] S1x1x2048x64.size inb_S1x1x2048x64_S1x1x2048x64_0_0_0_0
abbrev r1_3 : Rect S1x1x256x64 := Rect.unit (s := S1x1x256x64) ![0, 0, 0, 0] S1x1x256x64.size inb_S1x1x256x64_S1x1x256x64_0_0_0_0

/-! ## The output buffer after the body -/

/-- The output window's staging buffer after the body, as a function of the three input blocks: the single store,
    of the payload computed from the three whole-buffer loads, laid over the whole buffer. -/
def out1_3 (x0 : Vec F S1x1x256x64 .bf16) (x1 : Vec F S1x1x2048x64 .bf16) (x2 : Vec F S1x1x2048x64 .bf16) : Vec F S1x1x256x64 .bf16 :=
  View.canon [⟨r1_3, k1_pay1 (View.ld x0 r1_0) (View.ld x1 r1_1) (View.ld x2 r1_2)⟩]

/-- The one stored rectangle is the whole buffer, so every index of the buffer lies in it. -/
theorem cover1_3 (p0 : Vec F S1x1x256x64 .bf16) (y : S1x1x256x64.Idx) :
    ∃ pc ∈ ([⟨r1_3, p0⟩] : List (View.Piece (Elt F) S1x1x256x64 .bf16)), y ∈ pc.1.set :=
  View.cover_of_tiled [⟨r1_3, p0⟩] S1x1x256x64.size (by rfl) y

/-! ## The body's triple -/

set_option maxHeartbeats 1000000 in
/-- The body run on four whole buffers — the three inputs holding `x0`, `x1`, `x2`, the output holding anything —
    reaches any continuation that accepts the inputs unchanged and the output at `out1_3 x0 x1 x2`: three loads, the
    load of the output (whose value is dropped), and one store over the whole output. -/
theorem sound_kernel1 (c : Dev nD) (E : Set ℕ) (i : grid1.Coords)
    (arg0 : Memref sig .tc .vmem S1x1x256x64 .bf16) (harg0 : arg0.IsWhole) (arg1 : Memref sig .tc .vmem S1x1x2048x64 .bf16) (harg1 : arg1.IsWhole)
    (arg2 : Memref sig .tc .vmem S1x1x2048x64 .bf16) (harg2 : arg2.IsWhole) (arg3 : Memref sig .tc .vmem S1x1x256x64 .bf16) (harg3 : arg3.IsWhole)
    (x0 : Vec F S1x1x256x64 .bf16) (x1 : Vec F S1x1x2048x64 .bf16) (x2 : Vec F S1x1x2048x64 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: every window's array at the entry contents `V`; after the body at
    point `t` each input buffer still at its block and the output buffer at `out1_3` of the three blocks; the
    invariant is the one that only carries the untouched scoped buffers and the generator register; full shares,
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- What the body finds in each input's current buffer: the window's block at that point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

/-- What the body is handed at point `t`: the invariant, the core's debt, and the four current staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the
    core's debt are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiR2Runs.lean ====
import proofs.«166712_j30709016166637_2_alg».proof.Proof.Gen.KernelIdeal.Launch
import proofs.«166712_j30709016166637_2_alg».proof.Proof.Gen.KernelIdeal.Skeleton
import proofs.«166712_j30709016166637_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of the buffer's own extents at offset zero.
Such a load reads the contents; such a store, whatever was stored before it, leaves its payload. -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- A load through the whole-shape rectangle at offset zero reads the contents. -/
theorem ld_whole {S : Shape} {e : EltTy} {off : Fin S.rank → Nat} (h : off = fun _ => 0) (inb : ∀ a, off a + S.size a ≤ S.size a)
    (X : S.Idx → Elt F e) : View.ld X (Rect.unit off S.size inb) = X := by
  subst h; funext x; show X ((Rect.whole S).emb x) = X x; rw [Rect.emb_whole_apply]

/-- A load through the whole-shape rectangle of a whole memref whose contents read `X` reads `X`. -/
theorem readAt_unread_whole {sp : Space} {S : Shape} {e : EltTy} (m : Memref sig .tc sp S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, ld_whole h inb]

/-- What a view reads after a last store through the whole-shape rectangle: that store's payload. -/
theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-! ## The body's two conditionals -/

/-- The first conditional of the body: the last grid coordinate is zero. -/
abbrev cond2_0 (i : grid2.Coords) : Prop := (Scalar.cmpi .ne (Scalar.extui (Scalar.cmpi .eq (BitVec.ofNat 32 (i 2).val) 0#32)) 0#32) = 1#1
/-- The second conditional of the body: the last grid coordinate is fifteen. -/
abbrev cond2_1 (i : grid2.Coords) : Prop := k2_cond2 i = 1#1

/-- The first holds exactly at the points whose position is 0 modulo 16. -/
theorem hcond2_0 : ∀ t : Fin cfg2.N, cond2_0 (grid2.coords t) ↔ t.val % 16 = 0 :=
  (by decide +kernel : ∀ t : Fin grid2.N, cond2_0 (grid2.coords t) ↔ t.val % 16 = 0)
/-- The second holds exactly at the points whose position is 15 modulo 16. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## The body's run in each of its three cases

On whole memrefs: the a-block at `x0`, the w-block at `x1`, the scratch at `xs`. -/

set_option maxHeartbeats 1000000 in
/-- A middle point (neither conditional holds): the scratch `xs` becomes `k2_pay2 x0 x1 xs`; nothing else is touched. -/
theorem run2_mid (c : Dev nD) (i : grid2.Coords)
    (arg3 : Memref sig .tc .vmem S1x1x512x64 .bf16) (harg3 : arg3.IsWhole) (arg4 : Memref sig .tc .vmem S1x1024x64 .bf16) (harg4 : arg4.IsWhole)
    (arg5 : Memref sig .tc .vmem S1x1024 .f32) (harg5 : arg5.IsWhole) (arg6 : Memref sig .tc .vmem S1x512x1024 .f32) (harg6 : arg6.IsWhole)
    (arg7 : Memref sig .tc .vmem S512x1024 .f32) (harg7 : arg7.IsWhole) (hc0 : ¬cond2_0 i) (hc1 : ¬cond2_1 i)
    (x0 : Vec F S1x1x512x64 .bf16) (x1 : Vec F S1x1024x64 .bf16) (xs : Vec F S512x1024 .f32) (E : Set ℕ) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1 ∗ owns (c : Thread nD τ) arg7 fullShare (k2_pay2 x0 x1 xs)) -∗ K ⟨⟩))
      ⊢ wp frame (wpE (defs₀ (F := F)) Variants.none c none) E (cc2__outproj_kernel i arg3 harg3 arg4 harg4 arg5 harg5 arg6 harg6 arg7 harg7) K := by
  simp only [cc2__outproj_kernel_eq_skeleton]; unfold cc2__outproj_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  rw [read_writes_cons_whole _ _ zeros2, readAt_unread_whole arg3 harg3 zeros4, readAt_unread_whole arg4 harg4 zeros3,
    readAt_unread_whole arg7 harg7 zeros2]

set_option maxHeartbeats 1000000 in
/-- A first point of a run of sixteen (the first conditional holds, the second does not): whatever the scratch held,
    it is zeroed (`k2_pay1`) and then becomes `k2_pay2 x0 x1 k2_pay1`; nothing else is touched. -/
theorem run2_first (c : Dev nD) (i : grid2.Coords)
    (arg3 : Memref sig .tc .vmem S1x1x512x64 .bf16) (harg3 : arg3.IsWhole) (arg4 : Memref sig .tc .vmem S1x1024x64 .bf16) (harg4 : arg4.IsWhole)
    (arg5 : Memref sig .tc .vmem S1x1024 .f32) (harg5 : arg5.IsWhole) (arg6 : Memref sig .tc .vmem S1x512x1024 .f32) (harg6 : arg6.IsWhole)
    (arg7 : Memref sig .tc .vmem S512x1024 .f32) (harg7 : arg7.IsWhole) (hc0 : cond2_0 i) (hc1 : ¬cond2_1 i)
    (x0 : Vec F S1x1x512x64 .bf16) (x1 : Vec F S1x1024x64 .bf16) (xs : Vec F S512x1024 .f32) (E : Set ℕ) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1 ∗ owns (c : Thread nD τ) arg7 fullShare (k2_pay2 x0 x1 (k2_pay1 (F := F)))) -∗ K ⟨⟩))
      ⊢ wp frame (wpE (defs₀ (F := F)) Variants.none c none) E (cc2__outproj_kernel i arg3 harg3 arg4 harg4 arg5 harg5 arg6 harg6 arg7 harg7) K := by
  simp only [cc2__outproj_kernel_eq_skeleton]; unfold cc2__outproj_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_run_names
  rw [read_writes_cons_whole _ _ zeros2, readAt_unread_whole arg3 harg3 zeros4, readAt_unread_whole arg4 harg4 zeros3]
  rw [View.readCov_cons_toLoadRect]

set_option maxHeartbeats 1000000 in
/-- A last point of a run of sixteen (the second conditional holds, the first does not): the scratch `xs` becomes
    `k2_pay2 x0 x1 xs`, and the output buffer, whatever it held, is left holding `k2_pay3` of that and the bias row `x2`. -/
theorem run2_last (c : Dev nD) (i : grid2.Coords)
    (arg3 : Memref sig .tc .vmem S1x1x512x64 .bf16) (harg3 : arg3.IsWhole) (arg4 : Memref sig .tc .vmem S1x1024x64 .bf16) (harg4 : arg4.IsWhole)
    (arg5 : Memref sig .tc .vmem S1x1024 .f32) (harg5 : arg5.IsWhole) (arg6 : Memref sig .tc .vmem S1x512x1024 .f32) (harg6 : arg6.IsWhole)
    (arg7 : Memref sig .tc .vmem S512x1024 .f32) (harg7 : arg7.IsWhole) (hc0 : ¬cond2_0 i) (hc1 : cond2_1 i)
    (x0 : Vec F S1x1x512x64 .bf16) (x1 : Vec F S1x1024x64 .bf16) (x2 : Vec F S1x1024 .f32) (xo : Vec F S1x512x1024 .f32) (xs : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 x0 x1 xs) x2) ∗ owns (c : Thread nD τ) arg7 fullShare (k2_pay2 x0 x1 xs)) -∗ K ⟨⟩))
      ⊢ wp frame (wpE (defs₀ (F := F)) Variants.none c none) E (cc2__outproj_kernel i arg3 harg3 arg4 harg4 arg5 harg5 arg6 harg6 arg7 harg7) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_run_names
    rw [read_writes_cons_whole _ _ zeros3, readAt_unread_whole arg5 harg5 zeros2, View.readCov_cons_toLoadRect,
      readAt_unread_whole arg3 harg3 zeros4, readAt_unread_whole arg4 harg4 zeros3, readAt_unread_whole arg7 harg7 zeros2]
  iexists _; isplitr
  swap; · iexact HS
  ipureintro
  sl_unfold_run_names
  rw [read_writes_cons_whole _ _ zeros2, readAt_unread_whole arg3 harg3 zeros4, readAt_unread_whole arg4 harg4 zeros3,
    readAt_unread_whole arg7 harg7 zeros2]

end Cert.KernelIdeal.Hand

end
-- ==== Proof.KiR2.lean ====
import proofs.«166712_j30709016166637_2_alg».proof.Proof.Gen.KernelIdeal.Launch
import proofs.«166712_j30709016166637_2_alg».proof.Proof.Gen.KernelIdeal.Skeleton
import proofs.«166712_j30709016166637_2_alg».proof.Proof.Gen.KernelIdeal.Points
import proofs.«166712_j30709016166637_2_alg».proof.Proof.KiR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator

The scratch after the body at position `n`: at a position that is 0 modulo 16 the product of that point's blocks added to
the zero block; at any other, added to what the position before left. -/

def acc2 (c : Dev nD) : (n : ℕ) → n < cfg2.N → Vec F S512x1024 .f32
  | 0, hn => k2_pay2 (iblk2 V c 0 ⟨0, hn⟩) (iblk2 V c 1 ⟨0, hn⟩) (k2_pay1 (F := F))
  | n + 1, hn =>
    if (n + 1) % 16 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

theorem acc2_first (c : Dev nD) (t : Fin cfg2.N) (h : t.val % 16 = 0) :
    acc2 V c t.val t.isLt = k2_pay2 (iblk2 V c 0 t) (iblk2 V c 1 t) (k2_pay1 (F := F)) := by
  obtain ⟨n, hn⟩ := t
  cases n with
  | zero => rfl
  | succ n => exact if_pos h

theorem acc2_step (c : Dev nD) (t : Fin cfg2.N) (h : t.val % 16 ≠ 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The scratch operand: a whole scoped buffer of the kernel's own, passed beside the windows. -/
abbrev scM2 : Memref sig .tc .vmem S512x1024 .f32 := Memref.whole cc2_scratch0

/-- The TensorCore's scoped buffers that are no staging buffer of this region: those of the other two regions, each at some
    contents, and the scratch, in the state `X`. -/
def rest2 (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ X)

/-- The scratch can be taken out of it and put back in another state. -/
theorem rest2_swap (c : Dev nD) (X X' : sProp 𝕄) : rest2 (F := F) c X ⊢ iprop(X ∗ (X' -∗ rest2 (F := F) c X')) := by
  unfold rest2
  iintro ⟨R1, R2, R3, R4, R5, R6, R7, R8, R9, R10, R11, R12, R13, R14, HX⟩
  isplitl [HX]
  · iexact HX
  iintro HX'
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact HX'

/-- The region invariant as the launch hands it over: the scratch at some contents. -/
theorem PhiA2_eq (c : Dev nD) :
    (Pipeline.ΦA spec2 c : sProp 𝕄) = iprop(rest2 (F := F) c iprop(∃ d, owns (c : Thread nD τ) scM2 fullShare d) ∗ (∃ r, prngReg c r)) := by
  unfold Pipeline.ΦA rest2; rw [scopedRest2_eq]; simp only [scM2, owns_whole]; try rfl

/-- The region invariant before position `n`: before the first point the launch's; afterwards the scratch holds what the
    position before left. -/
def PhiS2 (c : Dev nD) : (n : ℕ) → n ≤ cfg2.N → sProp 𝕄
  | 0, _ => Pipeline.ΦA spec2 c
  | n + 1, hn => iprop(rest2 (F := F) c (owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 (F := F) c (owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop(rest2 (F := F) c (owns (c : Thread nD τ) scM2 fullShare (acc2 V c (n - 1) (by omega))) ∗ (∃ r, prngReg c r)) := by
  cases n with
  | zero => exact absurd rfl hz
  | succ n => rfl

/-- At any position the scratch holds something. -/
theorem PhiS2_any (c : Dev nD) (n : ℕ) (h : n ≤ cfg2.N) :
    PhiS2 V c n h ⊢ iprop(rest2 (F := F) c iprop(∃ d, owns (c : Thread nD τ) scM2 fullShare d) ∗ (∃ r, prngReg c r)) := by
  by_cases hz : n = 0
  · rw [PhiS2_zero V c n h hz, PhiA2_eq]; try exact Idealize.SL.BI.Entails.refl _
  · rw [PhiS2_pos V c n h hz]
    iintro ⟨HR, Hg⟩
    isplitl [HR]
    · icases (rest2_swap (F := F) c _ (iprop(∃ d, owns (c : Thread nD τ) scM2 fullShare d))) $$ HR with ⟨HS, Hw⟩
      iapply Hw
      iexists _; iexact HS
    iexact Hg

/-! ## The proof data -/

/-- The proof data of the region on core `c`: the arrays as the region finds them; after the body at point `t` each input's
    buffer at its block, and the output's at the accumulator of `t` with the bias row added (what the body stores at the
    points that are 15 modulo 16; at the other points the window is idle and this value is not consulted); the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (acc2 V c t.val t.isLt) (iblk2 V c 2 t) := by dsimp only [dat2]
theorem after2_3_last (c : Dev nD) (t : Fin cfg2.N) (h : t.val % 16 = 15) :
    (dat2 V c).after 3 t = k2_pay3 (acc2 V c t.val t.isLt) (iblk2 V c 2 t) := after2_3 V c t

/-- Each input's current staging buffer holds its block at every point, fetched there or not: where it is not fetched the
    block index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Away from the points that are 15 modulo 16 the output window is idle, -/
theorem idleAt2_3 : ∀ t : Fin cfg2.N, ¬cond2_1 (grid2.coords t) → cfg2.idle 3 (grid2.coords t) = true := by decide +kernel
/-- and is not written back; -/
theorem noFlush2_3 (t : Fin cfg2.N) (h : ¬t.val % 16 = 15) : (cfg2.win 3).flush t = false :=
  Bool.eq_false_iff.mpr fun hf => h ((flush2_3 t).mp hf)
/-- at those points it is live. -/
theorem liveAt2_3 : ∀ t : Fin cfg2.N, cond2_1 (grid2.coords t) → cfg2.idle 3 (grid2.coords t) = false := by decide +kernel

/-! ## The body obligation -/

/-- Each window's current staging memref at point `t`, as the pipeline passes it to the body, and its wholeness. -/
abbrev ms2_0 (t : Fin cfg2.N) : Memref sig .tc .vmem S1x1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x1024 .f32 := win2_3.stage (cfg2.slots t 3)
abbrev hs2_3 (t : Fin cfg2.N) : (ms2_3 t).IsWhole := hstage2_3 ((cfg2.slots t 3).cast nbuf2_3)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the position modulo 16 says which of the three cases the
    point is in. The invariant hands the body the scratch (at anything at a first point of a run of sixteen, else at what
    the point before left) and takes it back at this point's accumulator. Away from the last point of a run the output
    buffer is handed back untouched; there it is left holding the accumulator with the bias row added. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 128 := lt_of_lt_of_eq t.isLt (show cfg2.N = 128 from N_2)
  rw [PhiS2_castSucc V c t]
  by_cases h0 : t.val % 16 = 0
  · have h15 : ¬t.val % 16 = 15 := by omega
    rw [Dat.leavesExact_idle (dat2 V c) 3 t (idleAt2_3 t (fun h => h15 ((hcond2_1 t).mp h))) (noFlush2_3 t h15)]
    rw [acc2_first V c t h0]
    iintro ⟨HP, Ho, ⟨%d0, H0⟩, ⟨%d1, H1⟩, ⟨%d2, H2⟩, H3⟩
    icases (PhiS2_any V c _ _) $$ HP with ⟨HR, Hg⟩
    icases (rest2_swap (F := F) c _ (owns (c : Thread nD τ) scM2 fullShare (k2_pay2 (iblk2 V c 0 t) (iblk2 V c 1 t) (k2_pay1 (F := F))))) $$ HR with ⟨⟨%xs, HS⟩, Hw⟩
    iapply (run2_first c (grid2.coords t) _ _ _ _ _ _ _ _ _ _ ((hcond2_0 t).mpr h0) (fun h => h15 ((hcond2_1 t).mp h)) (iblk2 V c 0 t) (iblk2 V c 1 t) xs Set.univ _)
    isplitl [H0]; · iexact H0
    isplitl [H1]; · iexact H1
    isplitl [HS]; · iexact HS
    iintro ⟨H0, H1, HS⟩
    isplitl [HS Hw Hg]
    · isplitl [HS Hw]
      · iapply Hw; iexact HS
      iexact Hg
    isplitl [Ho]; · iexact Ho
    isplitl [H0]; · iexact H0
    isplitl [H1]; · iexact H1
    isplitl [H2]; · iexact H2
    iexact H3
  · have hz : t.val ≠ 0 := by omega
    rw [PhiS2_pos V c _ _ hz]
    by_cases h15 : t.val % 16 = 15
    · rw [show (dat2 V c).leavesExact 3 t = owns (c : Thread nD τ) (ms2_3 t) fullShare ((dat2 V c).after 3 t) from by
        unfold Dat.leavesExact; rw [liveAt2_3 t ((hcond2_1 t).mpr h15)], after2_3, acc2_step V c t h0]
      generalize acc2 V c (t.val - 1) (Nat.lt_of_le_of_lt (Nat.sub_le _ _) t.isLt) = xs
      iintro ⟨⟨HR, Hg⟩, Ho, ⟨%d0, H0⟩, ⟨%d1, H1⟩, ⟨%d2, H2⟩, ⟨%d3, H3⟩⟩
      icases (rest2_swap (F := F) c _ (owns (c : Thread nD τ) scM2 fullShare (k2_pay2 (iblk2 V c 0 t) (iblk2 V c 1 t) xs))) $$ HR with ⟨HS, Hw⟩
      iapply (run2_last c (grid2.coords t) _ _ _ _ _ _ _ _ _ _ (fun h => h0 ((hcond2_0 t).mp h)) ((hcond2_1 t).mpr h15) (iblk2 V c 0 t) (iblk2 V c 1 t) (iblk2 V c 2 t) _ xs Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hw Hg]
      · isplitl [HS Hw]
        · iapply Hw; iexact HS
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h15 ((hcond2_1 t).mp h))) (noFlush2_3 t h15), acc2_step V c t h0]
      generalize acc2 V c (t.val - 1) (Nat.lt_of_le_of_lt (Nat.sub_le _ _) t.isLt) = xs
      iintro ⟨⟨HR, Hg⟩, Ho, ⟨%d0, H0⟩, ⟨%d1, H1⟩, ⟨%d2, H2⟩, H3⟩
      icases (rest2_swap (F := F) c _ (owns (c : Thread nD τ) scM2 fullShare (k2_pay2 (iblk2 V c 0 t) (iblk2 V c 1 t) xs))) $$ HR with ⟨HS, Hw⟩
      iapply (run2_mid c (grid2.coords t) _ _ _ _ _ _ _ _ _ _ (fun h => h0 ((hcond2_0 t).mp h)) (fun h => h15 ((hcond2_1 t).mp h)) (iblk2 V c 0 t) (iblk2 V c 1 t) xs Set.univ _)
      isplitl [H0]; · iexact H0
      isplitl [H1]; · iexact H1
      isplitl [HS]; · iexact HS
      iintro ⟨H0, H1, HS⟩
      isplitl [HS Hw Hg]
      · isplitl [HS Hw]
        · iapply Hw; iexact HS
        iexact Hg
      isplitl [Ho]; · iexact Ho
      isplitl [H0]; · iexact H0
      isplitl [H1]; · iexact H1
      isplitl [H2]; · iexact H2
      iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: what the scratch holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Cert.KernelIdeal.Hand

end
-- ==== Proof.KiRun.lean ====
/-
  The run of the whole program, at any float instance: the buffer contents at every boundary between a stretch
  of host operations and a kernel region, folded from the launch memory; each region's proof data at the contents
  it is entered from; the three regions as segments; and the run itself — every weakly fair execution terminates
  and every unscoped buffer ends at the last boundary's contents.  From it: the argument arrays end as launched
  (no host operation writes one and no region has one among its arrays), and the result array ends at what the
  third region's write-backs leave.
-/
import proofs.«166712_j30709016166637_2_alg».proof.Proof.KiR0
import proofs.«166712_j30709016166637_2_alg».proof.Proof.KiR1
import proofs.«166712_j30709016166637_2_alg».proof.Proof.KiR2
import proofs.«166712_j30709016166637_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first stretch of host operations: what the projection region is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch: what the attention region is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch: what the output-projection region is entered from. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the output-projection region: the contents the program returns with. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## A buffer that no stretch writes and no region has among its arrays ends as launched -/

/-- A reference outside what the three stretches write and outside every region's arrays keeps its launch contents. -/
theorem W6_kept (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m c (Proc.devRef .tc b) = m ((c : Thread nD τ).loc b) :=
  calc W6 m c (Proc.devRef .tc b)
    _ = W5 m c (Proc.devRef .tc b) := W6_of_ne m c b a2
    _ = W4 m c (Proc.devRef .tc b) := StableHlo.after_of_writes_sub hostOps2 _ hostOps2_writes h2
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

theorem W6_main_arg0 (c : Dev nD) : W6 m c (Proc.devRef .tc main_arg0) = m ((c : Thread nD τ).loc main_arg0) :=
  W6_kept m c main_arg0 (by decide) (by decide) (by decide) (by decide) (by decide) (by decide)
theorem W6_main_arg1 (c : Dev nD) : W6 m c (Proc.devRef .tc main_arg1) = m ((c : Thread nD τ).loc main_arg1) :=
  W6_kept m c main_arg1 (by decide) (by decide) (by decide) (by decide) (by decide) (by decide)
theorem W6_main_arg2 (c : Dev nD) : W6 m c (Proc.devRef .tc main_arg2) = m ((c : Thread nD τ).loc main_arg2) :=
  W6_kept m c main_arg2 (by decide) (by decide) (by decide) (by decide) (by decide) (by decide)
theorem W6_main_arg3 (c : Dev nD) : W6 m c (Proc.devRef .tc main_arg3) = m ((c : Thread nD τ).loc main_arg3) :=
  W6_kept m c main_arg3 (by decide) (by decide) (by decide) (by decide) (by decide) (by decide)
theorem W6_main_arg4 (c : Dev nD) : W6 m c (Proc.devRef .tc main_arg4) = m ((c : Thread nD τ).loc main_arg4) :=
  W6_kept m c main_arg4 (by decide) (by decide) (by decide) (by decide) (by decide) (by decide)

/-- The result array ends at what the third region's write-backs leave in its output window's array. -/
theorem W6_result (c : Dev nD) : W6 m c (Proc.devRef .tc main_v15) = (dat2 (V5 m) c).arrAt 3 cfg2.N :=
  W6_arr m c 3

/-! ## The proof data family and the thread state -/

abbrev adm' : (p : Fin 3) → (pcfgs (F := F) p).Adm := fun p => (cfgs p).toPCfg_adm
/-- Every pipeline's proof data, each at the contents its region is entered from. -/
def pdats : (p : Fin 3) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 as a segment: entered from every unscoped buffer at the boundary's contents, left at the next boundary's;
    its arrays are split out of the unscoped buffers and put back at what the pipeline leaves; the generator register
    goes into the region invariant and comes back; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the boundary's contents, left at the next boundary's;
    its arrays are split out of the unscoped buffers and put back at what the pipeline leaves; the generator register
    goes into the region invariant and comes back; nothing is owed; the kernel has no semaphore of its own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the boundary's contents, left at the next boundary's;
    its arrays are split out of the unscoped buffers and put back at what the pipeline leaves; the generator register
    goes into the region invariant and comes back; nothing is owed; the kernel has no semaphore of its own. -/
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 := hin2 (V5 m) c
    unfold Pipeline.ΦA at h2
    change _ ⊢ (dat2 (V5 m) c).Φ 0
    iintro ⟨Hp, -, Hr⟩
    iapply h2
    isplitl [Hr]; · iexact Hr
    iexact Hp
  hout c := by
    rw [Pipeline.ownSems0_none]
    have h2 := hout2 (V5 m) c
    unfold Pipeline.ΦA at h2
    change (dat2 (V5 m) c).Φ (Fin.last cfg2.N) ⊢ _
    iintro HΦ
    ihave H := h2 $$ HΦ
    icases H with ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The six segments in order: a host segment per stretch from its boundary's contents, a region per kernel call. -/
abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run m ρ)

/-- The run with the result named: the result array ends at what the third region's write-backs leave, the
    argument arrays as launched. -/
theorem run_result : θ_run defs (onTc (τ := τ) (main (F := F))) ⟨m, fun _ => 0, ρ⟩ (fun r => ∀ c : Dev nD,
      r.2.mem ((c.tc : Thread nD τ).loc main_v15) = (dat2 (V5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v15 (by decide))).trans (W6_result m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run m ρ)

end Cert.KernelIdeal.Hand

end
-- ==== Proof.AttnSpec.lean ====
/-
  Multi-head attention over the extended reals, index by index: the function of the five argument arrays
  (activations x[2,2048,1024], fused projection weight wq[3072,1024] and bias bq[3072], output weight wo[1024,1024]
  and bias bo[1024]) that both programs compute.

  The fused projection is qkv(b,s,o) = Σ_i x(b,s,i)·wq(o,i) + bq(o).  Its 3072 channels are 16 heads of 192 lanes:
  lanes 0..63 of head h are that head's query, 64..127 its key, 128..191 its value (`chan`).  A score is the
  query–key product scaled by 1/8 = 1/√64; a row of scores is shifted by its maximum, exponentiated, normalised by
  its sum, and weights the values.  The output projection contracts the 1024 = 16·64 attention features
  (feature 64·h + d is lane d of head h: `col`) against wo and adds bo.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- Channel `192·h + off + d` of the fused projection: lane `d` of head `h`'s query (`off = 0`), key (`off = 64`)
    or value (`off = 128`). -/
def chan (h : Fin 16) (off : ℕ) (hoff : off ≤ 128) (d : Fin 64) : Fin 3072 :=
  ⟨h.val * 192 + off + d.val, by have := h.isLt; have := d.isLt; omega⟩

/-- Attention feature `64·h + d`: lane `d` of head `h`. -/
def col (h : Fin 16) (d : Fin 64) : Fin 1024 := ⟨h.val * 64 + d.val, by have := h.isLt; have := d.isLt; omega⟩

variable (x : (⟨3, ![2, 2048, 1024]⟩ : Shape).Idx → EReal) (wq : (⟨2, ![3072, 1024]⟩ : Shape).Idx → EReal)
  (bq : (⟨1, ![3072]⟩ : Shape).Idx → EReal) (wo : (⟨2, ![1024, 1024]⟩ : Shape).Idx → EReal)
  (bo : (⟨1, ![1024]⟩ : Shape).Idx → EReal)

/-- The fused projection. -/
def qkv (b : Fin 2) (s : Fin 2048) (o : Fin 3072) : EReal :=
  (∑ i : Fin 1024, x (ix3 b s i) * wq (ix2 o i)) + bq (ix1 o)

/-- The scaled score of query position `q` against key position `k` in head `h` (the scale is the f32 word of 1/8). -/
def score (b : Fin 2) (h : Fin 16) (q k : Fin 2048) : EReal :=
  (∑ d : Fin 64, qkv x wq bq b q (chan h 0 (by omega) d) * qkv x wq bq b k (chan h 64 (by omega) d))
    * Ideal.ofBits .f32 0x3E000000#32

/-- The maximum of a row of scores, as the fold of `max` from the f32 word of -∞. -/
def rowmax (b : Fin 2) (h : Fin 16) (q : Fin 2048) : EReal :=
  (Finset.univ : Finset (Fin 2048)).fold max (Ideal.ofBits .f32 0xFF800000#32) fun k => score x wq bq b h q k

/-- The shifted exponential of a score. -/
def ex (b : Fin 2) (h : Fin 16) (q k : Fin 2048) : EReal :=
  Ideal.exp (score x wq bq b h q k - rowmax x wq bq b h q)

/-- The normaliser of a row. -/
def den (b : Fin 2) (h : Fin 16) (q : Fin 2048) : EReal := ∑ k : Fin 2048, ex x wq bq b h q k

/-- The attention output: the softmax weights against the values. -/
def att (b : Fin 2) (h : Fin 16) (q : Fin 2048) (d : Fin 64) : EReal :=
  ∑ k : Fin 2048, Ideal.div (ex x wq bq b h q k) (den x wq bq b h q) * qkv x wq bq b k (chan h 128 (by omega) d)

/-- The output projection, the 1024 features summed head by head. -/
def out (b : Fin 2) (s : Fin 2048) (o : Fin 1024) : EReal :=
  (∑ h : Fin 16, ∑ d : Fin 64, att x wq bq b h s d * wo (ix2 o (col h d))) + bo (ix1 o)

/-- The result array. -/
def G : (⟨3, ![2, 2048, 1024]⟩ : Shape).Idx → EReal := fun i => out x wq bq wo bo (i 0) (i 1) (i 2)

theorem G_apply (b : Fin 2) (s : Fin 2048) (o : Fin 1024) : G x wq bq wo bo (ix3 b s o) = out x wq bq wo bo b s o := rfl

/-- The f32 word 0x3E000000 is 1/8. -/
theorem ofBits_eighth : Ideal.ofBits .f32 0x3E000000#32 = ((1 / 8 : ℝ) : EReal) := by
  simp [Ideal.ofBits, Ideal.ieee]
  first
    | exact_mod_cast (by norm_num : (8388608 : ℝ) * (1 / 67108864) = 1 / 8)
    | (rw [← EReal.coe_mul]; norm_num)

/-- The f32 word 0x42800000 is 64. -/
theorem ofBits_64 : Ideal.ofBits .f32 0x42800000#32 = ((64 : ℝ) : EReal) := by
  simp [Ideal.ofBits, Ideal.ieee]
  first
    | exact_mod_cast (by norm_num : (8388608 : ℝ) * (1 / 131072) = 64)
    | (rw [← EReal.coe_mul]; norm_num)

/-- Dividing by √64 is multiplying by 1/8, on every extended real. -/
theorem div_sqrt64 (a : EReal) :
    Ideal.div a (Ideal.sqrt (Ideal.ofBits .f32 0x42800000#32)) = a * Ideal.ofBits .f32 0x3E000000#32 := by
  have h8 : Real.sqrt 64 = 8 := by
    rw [show (64 : ℝ) = 8 ^ 2 by norm_num]; exact Real.sqrt_sq (by norm_num)
  rw [ofBits_64, ofBits_eighth, Ideal.sqrt_coe, if_neg (by norm_num), h8]
  exact Ideal.div_coe (by norm_num) a

end Cert.AttnSpec

end
-- ==== Proof.KiHost.lean ====
/-
  The host operations between the kernel regions, read at an index over the extended reals (where a change of
  float format is the identity): each result buffer of a stretch is a re-layout of one buffer the stretch starts
  from.  Row b·2048 + s of the flattened activations is position (b, s); channel 192·h + off + d of the fused
  projection is lane d of head h's query, key or value; feature 64·h + d of the output weight's columns is lane d
  of head h.
-/
import proofs.«166712_j30709016166637_2_alg».proof.Proof.Gen.KernelIdeal.Launch
import proofs.«166712_j30709016166637_2_alg».proof.Proof.AttnSpec
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Cert.AttnSpec
open Idealize.ShloMosaic Idealize.ShloMosaic.TcCoe Idealize.ShloMosaic.StableHlo Idealize.ShloMosaic.ValueIdx Idealize.SL.Sem

/-- Row `b·2048 + s` of the activations flattened to [4096, ·]. -/
def row (b : Fin 2) (s : Fin 2048) : Fin 4096 := ⟨b.val * 2048 + s.val, by have := b.isLt; have := s.isLt; omega⟩

variable (W : Valuation τ sig (Elt Ideal))

/-! ## The first stretch: the operands of the projection, and the output weight per head -/

/-- The flattened activations: row `b·2048 + s` is position `(b, s)`. -/
theorem hops0_v4 (b : Fin 2) (s : Fin 2048) (k : Fin 1024) :
    (StableHlo.after (hostOps0 (F := Ideal)) W (Proc.devRef .tc main_v4) : S4096x1024.Idx → EReal) (ix2 (row b s) k)
      = (W (Proc.devRef .tc main_arg0) : S2x2048x1024.Idx → EReal) (ix3 b s k) := by
  have e : (StableHlo.after (hostOps0 (F := Ideal)) W (Proc.devRef .tc main_v4) : S4096x1024.Idx → EReal)
      = shapeCast S4096x1024 (W (Proc.devRef .tc main_arg0) : S2x2048x1024.Idx → EReal) shapeCasts_S2x2048x1024_S4096x1024 := by
    dsimp only [hostOps0]
    after_results
    rfl
  rw [e]
  refine shapeCast_apply _ _ _ _ ?_
  show (S2x2048x1024.rowMajor (ix3 b s k)).val = (S4096x1024.rowMajor (ix2 (row b s) k)).val
  rw [Shape.rowMajor_val_three, Shape.rowMajor_val_two]
  show (b.val * 2048 + s.val) * 1024 + k.val = (b.val * 2048 + s.val) * 1024 + k.val
  rfl

/-- The projection weight in the narrower format is the weight. -/
theorem hops0_v0 (o : Fin 3072) (k : Fin 1024) :
    (StableHlo.after (hostOps0 (F := Ideal)) W (Proc.devRef .tc main_v0) : S3072x1024.Idx → EReal) (ix2 o k)
      = (W (Proc.devRef .tc main_arg1) : S3072x1024.Idx → EReal) (ix2 o k) := by
  have e : StableHlo.after (hostOps0 (F := Ideal)) W (Proc.devRef .tc main_v0)
      = ((truncf (F := Ideal) (s := S3072x1024) (φ := .f32) .bf16 · bitsLt_bf16_f32) : (⟨S3072x1024, .f32⟩ : BufTy).Contents (Elt Ideal) → (⟨S3072x1024, .bf16⟩ : BufTy).Contents (Elt Ideal))
          (W (Proc.devRef .tc main_arg1)) := by
    dsimp only [hostOps0]
    after_results
  exact (congrFun e (ix2 o k)).trans rfl

/-- The projection bias as a row. -/
theorem hops0_v5 (o : Fin 3072) :
    (StableHlo.after (hostOps0 (F := Ideal)) W (Proc.devRef .tc main_v5) : S1x3072.Idx → EReal) (ix2 (0 : Fin 1) o)
      = (W (Proc.devRef .tc main_arg2) : S3072.Idx → EReal) (ix1 o) := by
  have e : (StableHlo.after (hostOps0 (F := Ideal)) W (Proc.devRef .tc main_v5) : S1x3072.Idx → EReal)
      = shapeCast S1x3072 (W (Proc.devRef .tc main_arg2) : S3072.Idx → EReal) shapeCasts_S3072_S1x3072 := by
    dsimp only [hostOps0]
    after_results
    rfl
  rw [e]
  refine shapeCast_apply _ _ _ _ ?_
  show (S3072.rowMajor (ix1 o)).val = (S1x3072.rowMajor (ix2 (0 : Fin 1) o)).val
  rw [Shape.rowMajor_val_one, Shape.rowMajor_val_two]
  show o.val = 0 * 3072 + o.val
  omega

/-- The output weight per head: entry `(h, o, d)` is the weight's entry `(o, 64·h + d)`. -/
theorem hops0_v3 (h : Fin 16) (o : Fin 1024) (d : Fin 64) :
    (StableHlo.after (hostOps0 (F := Ideal)) W (Proc.devRef .tc main_v3) : S16x1024x64.Idx → EReal) (ix3 h o d)
      = (W (Proc.devRef .tc main_arg3) : S1024x1024.Idx → EReal) (ix2 o (col h d)) := by
  have e : (StableHlo.after (hostOps0 (F := Ideal)) W (Proc.devRef .tc main_v3) : S16x1024x64.Idx → EReal)
      = transpose S16x1024x64 [1, 0, 2] (shapeCast S1024x16x64
          (((truncf (F := Ideal) (s := S1024x1024) (φ := .f32) .bf16 · bitsLt_bf16_f32) : (⟨S1024x1024, .f32⟩ : BufTy).Contents (Elt Ideal) → (⟨S1024x1024, .bf16⟩ : BufTy).Contents (Elt Ideal))
            (W (Proc.devRef .tc main_arg3)) : S1024x1024.Idx → EReal)
          shapeCasts_S1024x1024_S1024x16x64) transposes_S1024x16x64_S16x1024x64_1_0_2 := by
    dsimp only [hostOps0]
    after_results
    rfl
  rw [e]
  refine (transpose_apply _ _ _ (ix3 h o d) (ix3 o h d) fun b => ?_).trans ?_
  · match b with
    | ⟨0, _⟩ => rfl
    | ⟨1, _⟩ => rfl
    | ⟨2, _⟩ => rfl
  refine (shapeCast_apply _ _ (ix3 o h d) (ix2 o (col h d)) ?_).trans rfl
  show (S1024x1024.rowMajor (ix2 o (col h d))).val = (S1024x16x64.rowMajor (ix3 o h d)).val
  rw [Shape.rowMajor_val_two, Shape.rowMajor_val_three]
  show o.val * 1024 + (h.val * 64 + d.val) = (o.val * 16 + h.val) * 64 + d.val
  omega

/-! ## The second stretch: the fused projection split into heads -/

/-- A head's query, key or value lanes: entry `(b, h, s, d)` of the slice at lane offset `off` of the fused projection
    viewed [2,2048,16,192] and transposed to [2,16,2048,192] is the projection's entry at row `b·2048 + s`, channel
    `192·h + off + d`. -/
theorem slice_apply (x : S4096x3072.Idx → EReal) (off : ℕ) (hoff : off ≤ 128)
    (hs : S2x16x2048x192.Slices ![0, 0, 0, off] S2x16x2048x64)
    (b : Fin 2) (h : Fin 16) (s : Fin 2048) (d : Fin 64) :
    extractStridedSlice S2x16x2048x64 ![0, 0, 0, off] (transpose S2x16x2048x192 [0, 2, 1, 3]
          (shapeCast S2x2048x16x192 (shapeCast S2x2048x3072 x
            shapeCasts_S4096x3072_S2x2048x3072) shapeCasts_S2x2048x3072_S2x2048x16x192)
          transposes_S2x2048x16x192_S2x16x2048x192_0_2_1_3) hs (ix4 b h s d)
      = x (ix2 (row b s) (chan h off hoff d)) := by
  have hd := d.isLt
  have hh := h.isLt
  refine (extractStridedSlice_apply _ _ _ (ix4 b h s d)
    (ix4 b h s (⟨off + d.val, by omega⟩ : Fin 192)) fun a => ?_).trans ?_
  · match a with
    | ⟨0, _⟩ => show b.val = 0 + b.val; omega
    | ⟨1, _⟩ => show h.val = 0 + h.val; omega
    | ⟨2, _⟩ => show s.val = 0 + s.val; omega
    | ⟨3, _⟩ => rfl
  refine (transpose_apply _ _ _ (ix4 b h s (⟨off + d.val, by omega⟩ : Fin 192))
    (ix4 b s h (⟨off + d.val, by omega⟩ : Fin 192)) fun a => ?_).trans ?_
  · match a with
    | ⟨0, _⟩ => rfl
    | ⟨1, _⟩ => rfl
    | ⟨2, _⟩ => rfl
    | ⟨3, _⟩ => rfl
  refine (shapeCast_apply _ _ (ix4 b s h (⟨off + d.val, by omega⟩ : Fin 192)) (ix3 b s (chan h off hoff d)) ?_).trans ?_
  · show (S2x2048x3072.rowMajor (ix3 b s (chan h off hoff d))).val
      = (S2x2048x16x192.rowMajor (ix4 b s h (⟨off + d.val, by omega⟩ : Fin 192))).val
    rw [Shape.rowMajor_val_three, Shape.rowMajor_val_four]
    show (b.val * 2048 + s.val) * 3072 + (h.val * 192 + off + d.val)
      = ((b.val * 2048 + s.val) * 16 + h.val) * 192 + (off + d.val)
    omega
  refine shapeCast_apply _ _ (ix3 b s (chan h off hoff d)) (ix2 (row b s) (chan h off hoff d)) ?_
  show (S4096x3072.rowMajor (ix2 (row b s) (chan h off hoff d))).val
    = (S2x2048x3072.rowMajor (ix3 b s (chan h off hoff d))).val
  rw [Shape.rowMajor_val_two, Shape.rowMajor_val_three]
  show (b.val * 2048 + s.val) * 3072 + (h.val * 192 + off + d.val)
    = (b.val * 2048 + s.val) * 3072 + (h.val * 192 + off + d.val)
  rfl

theorem hops1_v10 (b : Fin 2) (h : Fin 16) (s : Fin 2048) (d : Fin 64) :
    (StableHlo.after (hostOps1 (F := Ideal)) W (Proc.devRef .tc main_v10) : S2x16x2048x64.Idx → EReal) (ix4 b h s d)
      = (W (Proc.devRef .tc main_v6) : S4096x3072.Idx → EReal) (ix2 (row b s) (chan h 0 (by omega) d)) := by
  have e : (StableHlo.after (hostOps1 (F := Ideal)) W (Proc.devRef .tc main_v10) : S2x16x2048x64.Idx → EReal)
      = extractStridedSlice S2x16x2048x64 ![0, 0, 0, 0] (transpose S2x16x2048x192 [0, 2, 1, 3]
          (shapeCast S2x2048x16x192 (shapeCast S2x2048x3072 (W (Proc.devRef .tc main_v6) : S4096x3072.Idx → EReal)
            shapeCasts_S4096x3072_S2x2048x3072) shapeCasts_S2x2048x3072_S2x2048x16x192)
          transposes_S2x2048x16x192_S2x16x2048x192_0_2_1_3) slices_S2x16x2048x192_S2x16x2048x64_0_0_0_0 := by
    dsimp only [hostOps1]
    after_results
    rfl
  rw [e]
  exact slice_apply _ 0 (by omega) _ b h s d

theorem hops1_v11 (b : Fin 2) (h : Fin 16) (s : Fin 2048) (d : Fin 64) :
    (StableHlo.after (hostOps1 (F := Ideal)) W (Proc.devRef .tc main_v11) : S2x16x2048x64.Idx → EReal) (ix4 b h s d)
      = (W (Proc.devRef .tc main_v6) : S4096x3072.Idx → EReal) (ix2 (row b s) (chan h 64 (by omega) d)) := by
  have e : (StableHlo.after (hostOps1 (F := Ideal)) W (Proc.devRef .tc main_v11) : S2x16x2048x64.Idx → EReal)
      = extractStridedSlice S2x16x2048x64 ![0, 0, 0, 64] (transpose S2x16x2048x192 [0, 2, 1, 3]
          (shapeCast S2x2048x16x192 (shapeCast S2x2048x3072 (W (Proc.devRef .tc main_v6) : S4096x3072.Idx → EReal)
            shapeCasts_S4096x3072_S2x2048x3072) shapeCasts_S2x2048x3072_S2x2048x16x192)
          transposes_S2x2048x16x192_S2x16x2048x192_0_2_1_3) slices_S2x16x2048x192_S2x16x2048x64_0_0_0_64 := by
    dsimp only [hostOps1]
    after_results
    rfl
  rw [e]
  exact slice_apply _ 64 (by omega) _ b h s d

theorem hops1_v12 (b : Fin 2) (h : Fin 16) (s : Fin 2048) (d : Fin 64) :
    (StableHlo.after (hostOps1 (F := Ideal)) W (Proc.devRef .tc main_v12) : S2x16x2048x64.Idx → EReal) (ix4 b h s d)
      = (W (Proc.devRef .tc main_v6) : S4096x3072.Idx → EReal) (ix2 (row b s) (chan h 128 (by omega) d)) := by
  have e : (StableHlo.after (hostOps1 (F := Ideal)) W (Proc.devRef .tc main_v12) : S2x16x2048x64.Idx → EReal)
      = extractStridedSlice S2x16x2048x64 ![0, 0, 0, 128] (transpose S2x16x2048x192 [0, 2, 1, 3]
          (shapeCast S2x2048x16x192 (shapeCast S2x2048x3072 (W (Proc.devRef .tc main_v6) : S4096x3072.Idx → EReal)
            shapeCasts_S4096x3072_S2x2048x3072) shapeCasts_S2x2048x3072_S2x2048x16x192)
          transposes_S2x2048x16x192_S2x16x2048x192_0_2_1_3) slices_S2x16x2048x192_S2x16x2048x64_0_0_0_128 := by
    dsimp only [hostOps1]
    after_results
    rfl
  rw [e]
  exact slice_apply _ 128 (by omega) _ b h s d

/-! ## The third stretch: the output bias as a row -/

theorem hops2_v14 (o : Fin 1024) :
    (StableHlo.after (hostOps2 (F := Ideal)) W (Proc.devRef .tc main_v14) : S1x1024.Idx → EReal) (ix2 (0 : Fin 1) o)
      = (W (Proc.devRef .tc main_arg4) : S1024.Idx → EReal) (ix1 o) := by
  have e : (StableHlo.after (hostOps2 (F := Ideal)) W (Proc.devRef .tc main_v14) : S1x1024.Idx → EReal)
      = shapeCast S1x1024 (W (Proc.devRef .tc main_arg4) : S1024.Idx → EReal) shapeCasts_S1024_S1x1024 := by
    dsimp only [hostOps2]
    after_results
    rfl
  rw [e]
  refine shapeCast_apply _ _ _ _ ?_
  show (S1024.rowMajor (ix1 o)).val = (S1x1024.rowMajor (ix2 (0 : Fin 1) o)).val
  rw [Shape.rowMajor_val_one, Shape.rowMajor_val_two]
  show o.val = 0 * 1024 + o.val
  omega

end Cert.KernelIdeal.Hand

end
-- ==== Proof.AttnStages.lean ====
/-
  The three stages of the attention kernel as functions of the arrays each stage reads, over the extended reals,
  index by index: the row projection of a [4096,1024] matrix against the rows of a [3072,1024] weight plus a bias
  row; softmax attention of query, key and value arrays [2,16,2048,64] (scores scaled by the f32 word of 1/8, rows
  shifted by their maximum folded from the f32 word of -∞); and the output projection of a [2,16,2048,64] array
  against a per-head weight [16,1024,64], summed over heads and lanes, plus a bias row.
-/
import Idealize.ShloMosaic.PureOps.Ideal
import Idealize.ShloMosaic.PureOps.Ideal.Laws
import Idealize.ShloMosaic.Lib.ValueIdx

noncomputable section

namespace Cert.AttnStages

open Idealize.ShloMosaic Idealize.ShloMosaic.ValueIdx

/-! ## Stage 0: rows against rows, plus a bias row -/

section Proj
variable (x : (⟨2, ![4096, 1024]⟩ : Shape).Idx → EReal) (w : (⟨2, ![3072, 1024]⟩ : Shape).Idx → EReal)
  (bias : (⟨2, ![1, 3072]⟩ : Shape).Idx → EReal)

def projAt (r : Fin 4096) (o : Fin 3072) : EReal :=
  (∑ k : Fin 1024, x (ix2 r k) * w (ix2 o k)) + bias (ix2 (0 : Fin 1) o)

def proj : (⟨2, ![4096, 3072]⟩ : Shape).Idx → EReal := fun i => projAt x w bias (i 0) (i 1)

theorem proj_apply (r : Fin 4096) (o : Fin 3072) : proj x w bias (ix2 r o) = projAt x w bias r o := rfl
end Proj

/-! ## Stage 1: softmax attention -/

section Attn
variable (q k v : (⟨4, ![2, 16, 2048, 64]⟩ : Shape).Idx → EReal)

def sc (b : Fin 2) (h : Fin 16) (s t : Fin 2048) : EReal :=
  (∑ d : Fin 64, q (ix4 b h s d) * k (ix4 b h t d)) * Ideal.ofBits .f32 0x3E000000#32

def mx (b : Fin 2) (h : Fin 16) (s : Fin 2048) : EReal :=
  (Finset.univ : Finset (Fin 2048)).fold max (Ideal.ofBits .f32 0xFF800000#32) fun t => sc q k b h s t

def ee (b : Fin 2) (h : Fin 16) (s t : Fin 2048) : EReal := Ideal.exp (sc q k b h s t - mx q k b h s)

def dn (b : Fin 2) (h : Fin 16) (s : Fin 2048) : EReal := ∑ t : Fin 2048, ee q k b h s t

def attnAt (b : Fin 2) (h : Fin 16) (s : Fin 2048) (d : Fin 64) : EReal :=
  ∑ t : Fin 2048, Ideal.div (ee q k b h s t) (dn q k b h s) * v (ix4 b h t d)

def attnArr : (⟨4, ![2, 16, 2048, 64]⟩ : Shape).Idx → EReal := fun i => attnAt q k v (i 0) (i 1) (i 2) (i 3)

theorem attnArr_apply (b : Fin 2) (h : Fin 16) (s : Fin 2048) (d : Fin 64) :
    attnArr q k v (ix4 b h s d) = attnAt q k v b h s d := rfl
end Attn

/-! ## Stage 2: the output projection, summed head by head -/

section Out
variable (a : (⟨4, ![2, 16, 2048, 64]⟩ : Shape).Idx → EReal) (w3 : (⟨3, ![16, 1024, 64]⟩ : Shape).Idx → EReal)
  (bias : (⟨2, ![1, 1024]⟩ : Shape).Idx → EReal)

def outAt (b : Fin 2) (s : Fin 2048) (o : Fin 1024) : EReal :=
  (∑ h : Fin 16, ∑ d : Fin 64, a (ix4 b h s d) * w3 (ix3 h o d)) + bias (ix2 (0 : Fin 1) o)

def outArr : (⟨3, ![2, 2048, 1024]⟩ : Shape).Idx → EReal := fun i => outAt a w3 bias (i 0) (i 1) (i 2)

theorem outArr_apply (b : Fin 2) (s : Fin 2048) (o : Fin 1024) : outArr a w3 bias (ix3 b s o) = outAt a w3 bias b s o := rfl
end Out

end Cert.AttnStages

end
-- ==== Proof.KiCompose.lean ====
/-
  The kernel's result as a function of its arguments, over the extended reals.  The three regions' values — the
  row projection, the softmax attention, the output projection summed over heads, each a function of the arrays its
  region is entered with — are chained through the host re-layouts between them: the flattened activations and the
  per-head output weight before the first region, the split of the fused projection into heads' queries, keys and
  values before the second, the bias row before the third.  Index by index the composite is the attention
  specification of the five argument arrays.
-/
import proofs.«166712_j30709016166637_2_alg».proof.Proof.KiRun
import proofs.«166712_j30709016166637_2_alg».proof.Proof.KiHost
import proofs.«166712_j30709016166637_2_alg».proof.Proof.AttnSpec
import proofs.«166712_j30709016166637_2_alg».proof.Proof.AttnStages

noncomputable section

namespace Cert.KernelIdeal.Hand

open Cert.KernelIdeal Cert.KernelIdeal.Gen Cert.AttnSpec Cert.AttnStages
open Idealize.ShloMosaic Idealize.ShloMosaic.TcCoe Idealize.ShloMosaic.StableHlo Idealize.ShloMosaic.ValueIdx Idealize.SL.Sem

/-- Softmax attention of arrays that are, entry by entry, a head's query, key and value lanes of the fused
    projection is the specification's attention. -/
theorem attnAt_of_lanes (x : (⟨3, ![2, 2048, 1024]⟩ : Shape).Idx → EReal) (wq : (⟨2, ![3072, 1024]⟩ : Shape).Idx → EReal)
    (bq : (⟨1, ![3072]⟩ : Shape).Idx → EReal) (q k v : (⟨4, ![2, 16, 2048, 64]⟩ : Shape).Idx → EReal)
    (hq : ∀ b h s d, q (ix4 b h s d) = qkv x wq bq b s (chan h 0 (by omega) d))
    (hk : ∀ b h s d, k (ix4 b h s d) = qkv x wq bq b s (chan h 64 (by omega) d))
    (hv : ∀ b h s d, v (ix4 b h s d) = qkv x wq bq b s (chan h 128 (by omega) d))
    (b : Fin 2) (h : Fin 16) (s : Fin 2048) (d : Fin 64) :
    attnAt q k v b h s d = att x wq bq b h s d := by
  unfold attnAt att dn den ee ex mx rowmax sc score
  simp only [hq, hk, hv]

variable (m : (ℓ : Loc nD τ sig) → Buf (Elt Ideal) ℓ) (c : Dev nD)

/-- The five argument arrays as launched. -/
abbrev A0 : S2x2048x1024.Idx → EReal := m ((c : Thread nD τ).loc main_arg0)
abbrev A1 : S3072x1024.Idx → EReal := m ((c : Thread nD τ).loc main_arg1)
abbrev A2 : S3072.Idx → EReal := m ((c : Thread nD τ).loc main_arg2)
abbrev A3 : S1024x1024.Idx → EReal := m ((c : Thread nD τ).loc main_arg3)
abbrev A4 : S1024.Idx → EReal := m ((c : Thread nD τ).loc main_arg4)

section
-- What each region leaves in its output array, as a function of the arrays it is entered with.
variable
  (F0 : ∀ (V : (c : Dev nD) → (b : Ref sig .tc) → Buf (Elt Ideal) ((c : Thread nD τ).loc b)) (c : Dev nD),
    (dat0 (F := Ideal) V c).arrAt 3 cfg0.N = proj (V c main_v4) (V c main_v0) (V c main_v5))
  (F1 : ∀ (V : (c : Dev nD) → (b : Ref sig .tc) → Buf (Elt Ideal) ((c : Thread nD τ).loc b)) (c : Dev nD),
    (dat1 (F := Ideal) V c).arrAt 3 cfg1.N = attnArr (V c main_v10) (V c main_v11) (V c main_v12))
  (F2 : ∀ (V : (c : Dev nD) → (b : Ref sig .tc) → Buf (Elt Ideal) ((c : Thread nD τ).loc b)) (c : Dev nD),
    (dat2 (F := Ideal) V c).arrAt 3 cfg2.N = outArr (V c main_v13) (V c main_v3) (V c main_v14))

include F0 in
/-- After the first region the fused projection's array holds the specification's projection. -/
theorem v6_apply (b : Fin 2) (s : Fin 2048) (o : Fin 3072) :
    (W2 m c (Proc.devRef .tc main_v6) : S4096x3072.Idx → EReal) (ix2 (row b s) o) = qkv (A0 m c) (A1 m c) (A2 m c) b s o := by
  have e : (W2 m c (Proc.devRef .tc main_v6) : S4096x3072.Idx → EReal)
      = proj (V1 m c main_v4) (V1 m c main_v0) (V1 m c main_v5) := (W2_arr m c 3).trans (F0 (V1 m) c)
  rw [e, proj_apply]
  unfold projAt qkv
  refine congrArg₂ (· + ·) (Finset.sum_congr rfl fun k _ => congrArg₂ (· * ·) ?_ ?_) ?_
  · exact hops0_v4 (W0 m c) b s k
  · exact hops0_v0 (W0 m c) o k
  · exact hops0_v5 (W0 m c) o

include F0 in
theorem v10_apply (b : Fin 2) (h : Fin 16) (s : Fin 2048) (d : Fin 64) :
    (V3 m c main_v10 : S2x16x2048x64.Idx → EReal) (ix4 b h s d) = qkv (A0 m c) (A1 m c) (A2 m c) b s (chan h 0 (by omega) d) :=
  (hops1_v10 (W2 m c) b h s d).trans (v6_apply m c F0 b s _)

include F0 in
theorem v11_apply (b : Fin 2) (h : Fin 16) (s : Fin 2048) (d : Fin 64) :
    (V3 m c main_v11 : S2x16x2048x64.Idx → EReal) (ix4 b h s d) = qkv (A0 m c) (A1 m c) (A2 m c) b s (chan h 64 (by omega) d) :=
  (hops1_v11 (W2 m c) b h s d).trans (v6_apply m c F0 b s _)

include F0 in
theorem v12_apply (b : Fin 2) (h : Fin 16) (s : Fin 2048) (d : Fin 64) :
    (V3 m c main_v12 : S2x16x2048x64.Idx → EReal) (ix4 b h s d) = qkv (A0 m c) (A1 m c) (A2 m c) b s (chan h 128 (by omega) d) :=
  (hops1_v12 (W2 m c) b h s d).trans (v6_apply m c F0 b s _)

include F0 F1 in
/-- The third region is entered with the attention array holding the specification's attention. -/
theorem v13_apply (b : Fin 2) (h : Fin 16) (s : Fin 2048) (d : Fin 64) :
    (V5 m c main_v13 : S2x16x2048x64.Idx → EReal) (ix4 b h s d) = att (A0 m c) (A1 m c) (A2 m c) b h s d := by
  have e : (V5 m c main_v13 : S2x16x2048x64.Idx → EReal)
      = attnArr (V3 m c main_v10) (V3 m c main_v11) (V3 m c main_v12) :=
    (StableHlo.after_of_writes_sub hostOps2 _ hostOps2_writes (by decide : main_v13 ∉ hostOps2_W)).trans
      ((W4_arr m c 3).trans (F1 (V3 m) c))
  rw [e, attnArr_apply]
  exact attnAt_of_lanes _ _ _ _ _ _ (v10_apply m c F0) (v11_apply m c F0) (v12_apply m c F0) b h s d

/-- The third region is entered with the per-head output weight as the first stretch made it. -/
theorem v3_apply (h : Fin 16) (o : Fin 1024) (d : Fin 64) :
    (V5 m c main_v3 : S16x1024x64.Idx → EReal) (ix3 h o d) = A3 m c (ix2 o (col h d)) := by
  have e : (V5 m c main_v3 : S16x1024x64.Idx → EReal) = W1 m c (Proc.devRef .tc main_v3) :=
    (StableHlo.after_of_writes_sub hostOps2 _ hostOps2_writes (by decide : main_v3 ∉ hostOps2_W)).trans
      ((W4_of_ne m c main_v3 (by decide)).trans
        ((StableHlo.after_of_writes_sub hostOps1 _ hostOps1_writes (by decide : main_v3 ∉ hostOps1_W)).trans
          (W2_of_ne m c main_v3 (by decide))))
  rw [e]
  exact hops0_v3 (W0 m c) h o d

/-- The third region is entered with the output bias as a row. -/
theorem v14_apply (o : Fin 1024) :
    (V5 m c main_v14 : S1x1024.Idx → EReal) (ix2 (0 : Fin 1) o) = A4 m c (ix1 o) := by
  have e : (W4 m c (Proc.devRef .tc main_arg4) : S1024.Idx → EReal) = A4 m c :=
    (W4_of_ne m c main_arg4 (by decide)).trans
      ((StableHlo.after_of_writes_sub hostOps1 _ hostOps1_writes (by decide : main_arg4 ∉ hostOps1_W)).trans
        ((W2_of_ne m c main_arg4 (by decide)).trans
          (StableHlo.after_of_writes_sub hostOps0 _ hostOps0_writes (by decide : main_arg4 ∉ hostOps0_W))))
  exact (hops2_v14 (W4 m c) o).trans (congrFun e (ix1 o))

include F0 F1 F2 in
/-- THE KERNEL'S VALUE: what the third region's write-backs leave in the result array is the attention
    specification of the argument arrays. -/
theorem result_eq :
    ((dat2 (F := Ideal) (V5 m) c).arrAt 3 cfg2.N : S2x2048x1024.Idx → EReal)
      = G (A0 m c) (A1 m c) (A2 m c) (A3 m c) (A4 m c) := by
  rw [F2 (V5 m) c]
  funext i
  obtain ⟨b, s, o, rfl⟩ : ∃ (b : Fin 2) (s : Fin 2048) (o : Fin 1024), i = ix3 b s o := ⟨i 0, i 1, i 2, eq_ix3 i⟩
  rw [outArr_apply, G_apply]
  unfold outAt out
  refine congrArg₂ (· + ·) (Finset.sum_congr rfl fun h _ => Finset.sum_congr rfl fun d _ => congrArg₂ (· * ·) ?_ ?_) ?_
  · exact v13_apply m c F0 F1 b h s d
  · exact v3_apply m c h o d
  · exact v14_apply m c o

end

end Cert.KernelIdeal.Hand

end
-- ==== Proof.KiVal0.lean ====
import proofs.«166712_j30709016166637_2_alg».proof.Proof.KiR0
import proofs.«166712_j30709016166637_2_alg».proof.Proof.AttnStages
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.AttnStages

/-! # Region 0 at the extended reals: the output array after the region

The projection region leaves in its output array, index by index, the whole-array projection `AttnStages.proj` of the
three arrays it read: the body's value at an index of a block is the row-against-row sum plus the bias; each block of
the output sits at rows `256 t … 256 t + 255` of the array, where the activations' block sits too, while the weight's
and the bias's only block is the whole array; and the 16 blocks cover the array. -/

/-! ## The body's payload at an index -/

/-- The operand indices of the product `dot_S256x1024_S3072x1024_S256x3072_1_1_0_0_n_n` at an output index and a contraction index, coordinate by coordinate. -/
theorem dot0_lhs_free (i : S256x3072.Idx) (q : dot_S256x1024_S3072x1024_S256x3072_1_1_0_0_n_n.contr.Idx) :
    (dot_S256x1024_S3072x1024_S256x3072_1_1_0_0_n_n.lhsIdx i q 0).val = (i 0).val := by
  unfold DotDims.lhsIdx
  rw [dif_neg (show ¬(0 : Fin S256x1024.rank) ∈ dot_S256x1024_S3072x1024_S256x3072_1_1_0_0_n_n.lhsBatch by decide), dif_pos (show (0 : Fin S256x1024.rank) ∈ dot_S256x1024_S3072x1024_S256x3072_1_1_0_0_n_n.lhsNonContracting by decide)]
  rfl
theorem dot0_lhs_contr (i : S256x3072.Idx) (q : dot_S256x1024_S3072x1024_S256x3072_1_1_0_0_n_n.contr.Idx) :
    (dot_S256x1024_S3072x1024_S256x3072_1_1_0_0_n_n.lhsIdx i q 1).val = (q ⟨0, by decide⟩).val :=
  dot_S256x1024_S3072x1024_S256x3072_1_1_0_0_n_n.lhsIdx_val_of_single rfl i q
theorem dot0_rhs_free (i : S256x3072.Idx) (q : dot_S256x1024_S3072x1024_S256x3072_1_1_0_0_n_n.contr.Idx) :
    (dot_S256x1024_S3072x1024_S256x3072_1_1_0_0_n_n.rhsIdx i q 0).val = (i 1).val := by
  unfold DotDims.rhsIdx
  rw [dif_neg (show ¬(0 : Fin S3072x1024.rank) ∈ dot_S256x1024_S3072x1024_S256x3072_1_1_0_0_n_n.rhsBatch by decide), dif_pos (show (0 : Fin S3072x1024.rank) ∈ dot_S256x1024_S3072x1024_S256x3072_1_1_0_0_n_n.rhsNonContracting by decide)]
  rfl
theorem dot0_rhs_contr (i : S256x3072.Idx) (q : dot_S256x1024_S3072x1024_S256x3072_1_1_0_0_n_n.contr.Idx) :
    (dot_S256x1024_S3072x1024_S256x3072_1_1_0_0_n_n.rhsIdx i q 1).val = (q ⟨0, by decide⟩).val :=
  dot_S256x1024_S3072x1024_S256x3072_1_1_0_0_n_n.rhsIdx_val_of_single rfl i q

/-- The projection body's value at row `p`, column `o` of its block: the row of activations against row `o` of the
    weight, summed over the 1024 features, plus the bias at `o`. Over the extended reals the two roundings to bf16 are
    the identity, the shape casts are between equal shapes, and the product's accumulator is the zero word. -/
theorem pay0_apply (x : Vec Ideal S256x1024 .f32) (w : Vec Ideal S3072x1024 .bf16) (b : Vec Ideal S1x3072 .f32)
    (p : Fin 256) (o : Fin 3072) :
    k0_pay1 (F := Ideal) x w b (ix2 p o) = (∑ k : Fin 1024, x (ix2 p k) * w (ix2 o k)) + b (ix2 (0 : Fin 1) o) := by
  unfold k0_pay1
  simp only [shapeCast_self, matmul]
  rw [truncf_apply, addf_apply, Ideal.matmul_constant_zero_apply,
    ← Equiv.sum_comp (contrEquiv1 dot_S256x1024_S3072x1024_S256x3072_1_1_0_0_n_n 1024 rfl rfl).symm,
    broadcastTo_apply b broadcasts_S1x3072_S256x3072 (ix2 p o) (ix2 (0 : Fin 1) o) (fun a => by
      match a with
      | ⟨0, _⟩ => rfl
      | ⟨1, _⟩ => rfl)]
  refine congrArg (· + b (ix2 (0 : Fin 1) o)) (Finset.sum_congr rfl fun k _ => ?_)
  have hk := contrEquiv1_symm_val dot_S256x1024_S3072x1024_S256x3072_1_1_0_0_n_n 1024 rfl rfl k
  have el : dot_S256x1024_S3072x1024_S256x3072_1_1_0_0_n_n.lhsIdx (ix2 p o) ((contrEquiv1 dot_S256x1024_S3072x1024_S256x3072_1_1_0_0_n_n 1024 rfl rfl).symm k) = ix2 p k := funext fun a => Fin.ext (by
    match a with
    | ⟨0, _⟩ => exact dot0_lhs_free _ _
    | ⟨1, _⟩ => exact (dot0_lhs_contr _ _).trans hk)
  have er : dot_S256x1024_S3072x1024_S256x3072_1_1_0_0_n_n.rhsIdx (ix2 p o) ((contrEquiv1 dot_S256x1024_S3072x1024_S256x3072_1_1_0_0_n_n 1024 rfl rfl).symm k) = ix2 o k := funext fun a => Fin.ext (by
    match a with
    | ⟨0, _⟩ => exact dot0_rhs_free _ _
    | ⟨1, _⟩ => exact (dot0_rhs_contr _ _).trans hk)
  rw [el, er, truncf_apply]

/-! ## From blocks to the array -/

theorem zeros2_proj : (![0, 0] : Fin 2 → Nat) = fun _ => 0 := funext fun a => by fin_cases a <;> rfl

/-- The block indices over the 16 grid points: the activations' and the output's row block move together and every
    other block index is zero. -/
theorem blockIdx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every row block of the output is some point's. -/
theorem blockOnto0 : ∀ q : Fin 16, ∃ t : Fin cfg0.N, win0_3.index t = ![q.val, 0] :=
  (by decide +kernel : ∀ q : Fin 16, ∃ t : Fin grid0.N, win0_3.index t = ![q.val, 0])

section
variable (V : (c : Dev nD) → (b : Ref sig .tc) → Buf (Elt Ideal) ((c : Thread nD τ).loc b))

/-- What point `t` writes back is block `t` of the whole projection of the arrays the region read. -/
theorem flushed0_eq (c : Dev nD) (t : Fin cfg0.N) :
    (dat0 (F := Ideal) V c).flushed 3 t
      = ((cfg0.win 3).blk t).view.read (Elt Ideal) (proj (V c main_v4) (V c main_v0) (V c main_v5)) := by
  show (cfg0.win 3).cut (grid0.coords t) ((dat0 (F := Ideal) V c).after 3 t) = _
  rw [after0_3]
  unfold out0_3
  rw [View.canon_unit_zero zeros2_proj]
  simp only [View.ld_unit_zero (S := S256x1024) zeros2_proj, View.ld_unit_zero (S := S3072x1024) zeros2_proj, View.ld_unit_zero (S := S1x3072) zeros2_proj]
  obtain ⟨e0, e1, e2, e3, e4, e5, e6, e7⟩ := blockIdx0 t
  refine funext fun (j : S256x3072.Idx) => ?_
  obtain ⟨p, o, rfl⟩ : ∃ (p : Fin 256) (o : Fin 3072), j = ix2 p o := ⟨j 0, j 1, eq_ix2 j⟩
  have hp : p.val < 256 := p.isLt
  -- the row of the whole array that row `p` of block `t` is
  let r : Fin 4096 := ⟨win0_3.index t (0 : Fin 2) * 256 + p.val, by omega⟩
  have h3 : ((cfg0.win 3).blk t).view.emb (ix2 p o) = (ix2 r o : S4096x3072.Idx) := funext fun a => Fin.ext (by
    match a with
    | ⟨0, _⟩ => show win0_3.index t (0 : Fin 2) * 256 + 1 * p.val = win0_3.index t (0 : Fin 2) * 256 + p.val; omega
    | ⟨1, _⟩ => show win0_3.index t (1 : Fin 2) * 3072 + 1 * o.val = o.val; omega)
  have h0 : ∀ k : Fin 1024, (iblk0 V c 0 t : Vec Ideal S256x1024 .f32) (ix2 p k) = (V c main_v4 : S4096x1024.Idx → EReal) (ix2 r k) := fun k => by
    show (V c main_v4 : S4096x1024.Idx → EReal) (((cfg0.win 0).blk t).view.emb (ix2 p k)) = _
    refine congrArg _ (funext fun a => Fin.ext ?_)
    match a with
    | ⟨0, _⟩ => show win0_0.index t (0 : Fin 2) * 256 + 1 * p.val = win0_3.index t (0 : Fin 2) * 256 + p.val; omega
    | ⟨1, _⟩ => show win0_0.index t (1 : Fin 2) * 1024 + 1 * k.val = k.val; omega
  have h1 : ∀ k : Fin 1024, (iblk0 V c 1 t : Vec Ideal S3072x1024 .bf16) (ix2 o k) = (V c main_v0 : S3072x1024.Idx → EReal) (ix2 o k) := fun k => by
    show (V c main_v0 : S3072x1024.Idx → EReal) (((cfg0.win 1).blk t).view.emb (ix2 o k)) = _
    refine congrArg _ (funext fun a => Fin.ext ?_)
    match a with
    | ⟨0, _⟩ => show win0_1.index t (0 : Fin 2) * 3072 + 1 * o.val = o.val; omega
    | ⟨1, _⟩ => show win0_1.index t (1 : Fin 2) * 1024 + 1 * k.val = k.val; omega
  have h2 : (iblk0 V c 2 t : Vec Ideal S1x3072 .f32) (ix2 (0 : Fin 1) o) = (V c main_v5 : S1x3072.Idx → EReal) (ix2 (0 : Fin 1) o) := by
    show (V c main_v5 : S1x3072.Idx → EReal) (((cfg0.win 2).blk t).view.emb (ix2 (0 : Fin 1) o)) = _
    refine congrArg _ (funext fun a => Fin.ext ?_)
    match a with
    | ⟨0, _⟩ => show win0_2.index t (0 : Fin 2) * 1 + 1 * 0 = 0; omega
    | ⟨1, _⟩ => show win0_2.index t (1 : Fin 2) * 3072 + 1 * o.val = o.val; omega
  show k0_pay1 (F := Ideal) (iblk0 V c 0 t) (iblk0 V c 1 t) (iblk0 V c 2 t) (ix2 p o)
      = proj (V c main_v4) (V c main_v0) (V c main_v5) (((cfg0.win 3).blk t).view.emb (ix2 p o))
  rw [h3, proj_apply]
  refine (pay0_apply (iblk0 V c 0 t) (iblk0 V c 1 t) (iblk0 V c 2 t) p o).trans ?_
  unfold projAt
  rw [h2]
  exact congrArg (· + _) (Finset.sum_congr rfl fun k _ => by rw [h0 k, h1 k])

/-- An index of the output array lies in point `t`'s block exactly when each coordinate lies in the block's range. -/
theorem mem_blk0 (t : Fin cfg0.N) (i : S4096x3072.Idx) :
    i ∈ ((cfg0.win 3).blk t).view.set ↔ ∀ a : Fin 2, win0_3.index t a * S256x3072.size a ≤ (i a).val ∧ (i a).val < win0_3.index t a * S256x3072.size a + S256x3072.size a := by
  show i ∈ ((View.whole main_v6).slice (win0_3.rect t)).set ↔ _
  rw [View.set_slice_whole, Rect.mem_set_unit]
  exact Iff.rfl

/-- Every index of the output array is in the block of the point whose row block is `row / 256`. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := blockOnto0 ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 3072 ≤ (i 1).val ∧ (i 1).val < win0_3.index t (1 : Fin 2) * 3072 + 3072; omega

/-- After the region the output array is the whole projection of the three arrays the region read. -/
theorem final0 (c : Dev nD) :
    (dat0 (F := Ideal) V c).arrAt 3 cfg0.N = proj (V c main_v4) (V c main_v0) (V c main_v5) :=
  (dat0 (F := Ideal) V c).arrAt_eq_of_cover 3 (proj (V c main_v4) (V c main_v0) (V c main_v5))
    (fun t _ => flushed0_eq V c t) cover0

end

end Cert.KernelIdeal.Hand

end
-- ==== Proof.LibRows.lean ====
/-
  General lemmas about arrays with a kept unit column, read at an index, and about reductions along the last axis of a
  matrix, read at a row.

  * A vector of length `a` cast to a column `[a, 1]` holds at `(i, 0)` the vector's entry `i`.
  * A column `[a, 1]` broadcast to `[a, b]` holds at `(p, c)` the column's entry `p`.
  * Reducing a matrix `[a, b]` along its second axis, the reduced index `p` with coordinate `k` put back is `(p, k)`;
    so at the extended reals a row sum is `∑ k, v (p, k)` and a row maximum is the fold of `max` over `k ↦ v (p, k)`.
  * The same for a stack of matrices `[n, a, b]` reduced along its last axis by the host's reduction.
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along a new second axis reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing `[a, b]` along its second axis: row `p` with coordinate `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Reducing `[n, a, b]` along its last axis: `(i, p)` with coordinate `k` put back is `(i, p, k)`. -/
theorem lift_row3 {n a b : ℕ} (h : (⟨3, ![n, a, b]⟩ : Shape).Reduces [2] (⟨2, ![n, a]⟩ : Shape)) (i : Fin n) (p : Fin a)
    (k : Fin ((⟨3, ![n, a, b]⟩ : Shape).size 2)) : h.lift (ix2 i p) k = ix3 i p (⟨k.val, k.isLt⟩ : Fin b) := by
  funext c; apply Fin.ext
  fin_cases c <;> rfl

variable {φ : FTy}

/-- A lane sum along the second axis, at row `p`, is the sum of the row. -/
theorem rowSum_apply {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- A lane maximum along the second axis, at row `p`, is the fold of `max` over the row from the accumulator's value. -/
theorem rowMax_apply {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) fun k => v (ix2 p k) := by
  rw [Ideal.multiReduction_maximumf_single]
  exact congrArg (fun f => Finset.fold max (Ideal.ofBits φ acc) f (Finset.univ : Finset (Fin b)))
    (funext fun k => congrArg v (lift_row h p k))

/-- The host's reduction with a maximum body along the last axis of `[n, a, b]`, at `(i, p)`: the fold of `max` over
    that row from the initial value. -/
theorem hostRowMax3_apply {n a b : ℕ} {u : Shape} (x : FVec Ideal ⟨3, ![n, a, b]⟩ φ) (init : u.Idx → Ideal φ)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (i : Fin n) (p : Fin a) :
    Host.reduce FloatOps.maximumf x init h' hu (ix2 i p)
      = (Finset.univ : Finset (Fin b)).fold max (init (Shape.Idx.first hu)) fun k => x (ix3 i p k) := by
  rw [Host.reduce_eq_fold_single FloatOps.maximumf x init h' h hu]
  exact congrArg (fun f => Finset.fold max (init (Shape.Idx.first hu)) f (Finset.univ : Finset (Fin b)))
    (funext fun k => congrArg x (lift_row3 h i p k))

end Cert.LibRows

end
-- ==== Proof.LibKeepdims.lean ====
/-
  General lemmas: a reduction along the last axis of a matrix `[a, b]`, kept as a column `[a, 1]` and broadcast back to
  `[a, c]`, read at an entry `(p, q)` at the extended reals — the row's sum, or the row's maximum folded from the
  accumulator's value, whatever the column `q`. (What `jnp.sum(…, axis=-1, keepdims=True)` and
  `jnp.max(…, axis=-1, keepdims=True)` followed by a broadcast leave in a kernel body.)
-/
import proofs.«166712_j30709016166637_2_alg».proof.Proof.LibRows

noncomputable section

namespace Cert.LibKeepdims

open Idealize.ShloMosaic Idealize.ShloMosaic.ValueIdx

variable {φ : FTy}

/-- The row sums, kept as a column and broadcast to `[a, c]`, read at `(p, q)`: the sum of row `p`. -/
theorem bcast_col_rowSum_apply {a b c : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ (multiReduction .add [1] ⟨1, ![a]⟩ v acc h hφ hacc) hc) hb (ix2 p q)
      = ∑ k : Fin b, v (ix2 p k) := by
  rw [LibRows.broadcastTo_a1_ab_apply, LibRows.shapeCast_a_a1_apply, LibRows.rowSum_apply]

/-- The row maxima, kept as a column and broadcast to `[a, c]`, read at `(p, q)`: the fold of `max` over row `p` from the
    accumulator's value. -/
theorem bcast_col_rowMax_apply {a b c : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ (multiReduction .maximumf [1] ⟨1, ![a]⟩ v acc h hφ hacc) hc) hb (ix2 p q)
      = (Finset.univ : Finset (Fin b)).fold max (Ideal.ofBits φ acc) fun k => v (ix2 p k) := by
  rw [LibRows.broadcastTo_a1_ab_apply, LibRows.shapeCast_a_a1_apply, LibRows.rowMax_apply]

end Cert.LibKeepdims

end
-- ==== Proof.KiVal1.lean ====
import proofs.«166712_j30709016166637_2_alg».proof.Proof.KiR1
import proofs.«166712_j30709016166637_2_alg».proof.Proof.AttnStages
import proofs.«166712_j30709016166637_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.AttnStages

/-! # Region 1 at the extended reals: the output array after the region

The attention region leaves in its output array, index by index, the whole-array softmax attention
`AttnStages.attnArr` of the query, key and value arrays it read. On one block the body computes, for query row `s`:
the scores against all 2048 keys times the word of 1/8, their maximum folded from the word of -∞, the exponentials of
the shifted scores, their sum, and the quotients against the values; over the extended reals the roundings to bf16
are the identity. Block `t` of the output sits at the point's batch and head and at rows `256 g … 256 g + 255` for its
query block `g`, where the query block sits too, while the key and value blocks are the whole of that batch and head;
and the 256 blocks cover the array. -/

/-! ## The two products' operand indices -/

/-- The operand indices of the product `dot_S256x64_S2048x64_S256x2048_1_1_0_0_n_n` at an output index and a contraction index, coordinate by coordinate. -/
theorem dot1_lhs_free (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem dot1_lhs_contr (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem dot1_rhs_free (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem dot1_rhs_contr (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The operand indices of the product `dot_S256x2048_S2048x64_S256x64_1_0_0_1_n_n` at an output index and a contraction index, coordinate by coordinate. -/
theorem dot2_lhs_free (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem dot2_lhs_contr (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem dot2_rhs_free (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl
theorem dot2_rhs_contr (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q

/-! ## Casts that add or drop two leading unit axes, read at an index -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Layout

/-! ## The stages of the body on one block -/

section Block
variable (q : Vec Ideal S1x1x256x64 .bf16) (k v : Vec Ideal S1x1x2048x64 .bf16)

/-- The scaled score of query row `s` against key row `t` of the block. -/
def bsc (s : Fin 256) (t : Fin 2048) : EReal :=
  (∑ d : Fin 64, q (ix4 (0 : Fin 1) (0 : Fin 1) s d) * k (ix4 (0 : Fin 1) (0 : Fin 1) t d)) * Ideal.ofBits .f32 0x3E000000#32

/-- The maximum of row `s` of the scores, folded from the value of the word of -∞. -/
def bmx (s : Fin 256) : EReal :=
  (Finset.univ : Finset (Fin 2048)).fold max (Ideal.ofBits .f32 0xFF800000#32) fun t => bsc q k s t

/-- The exponential of the shifted score. -/
def bee (s : Fin 256) (t : Fin 2048) : EReal := Ideal.exp (bsc q k s t - bmx q k s)

/-- The sum of row `s` of the exponentials. -/
def bdn (s : Fin 256) : EReal := ∑ t : Fin 2048, bee q k s t

/-- The attention value of query row `s` at feature `d`. -/
def battn (s : Fin 256) (d : Fin 64) : EReal :=
  ∑ t : Fin 2048, Ideal.div (bee q k s t) (bdn q k s) * v (ix4 (0 : Fin 1) (0 : Fin 1) t d)

/-- The body's scaled scores, as the body computes them: the queries against the keys, times the word of 1/8. -/
def scoresV : FVec Ideal S256x2048 .f32 :=
  have v1 : FVec Ideal S256x64 .bf16 := shapeCast S256x64 q shapeCasts_S1x1x256x64_S256x64
  have v3 : FVec Ideal S2048x64 .bf16 := shapeCast S2048x64 k shapeCasts_S1x1x2048x64_S2048x64
  have cst : FVec Ideal S256x2048 .f32 := constant S256x2048 .f32 0x00000000#32
  have v6 : FVec Ideal S256x2048 .f32 := matmul dot_S256x64_S2048x64_S256x2048_1_1_0_0_n_n none v1 v3 cst
  have cst_11 : Ideal .f32 := Scalar.ofBits .f32 0x3E000000#32
  have v7 : FVec Ideal S256x2048 .f32 := broadcast S256x2048 cst_11
  mulf v6 v7

/-- The body's exponentials of the scores shifted by their row maxima, as the body computes them. -/
def expsV : FVec Ideal S256x2048 .f32 :=
  have v8 : FVec Ideal S256x2048 .f32 := scoresV q k
  have v9 : FVec Ideal S256 .f32 := multiReduction .maximumf [1] S256 v8 0xFF800000#32 reduces_S256x2048_S256 (.inl rfl) rfl
  have v10 : FVec Ideal S256x1 .f32 := shapeCast S256x1 v9 shapeCasts_S256_S256x1
  have v11 : FVec Ideal S256x2048 .f32 := broadcastTo S256x2048 v10 broadcasts_S256x1_S256x2048
  have v12 : FVec Ideal S256x2048 .f32 := subf v8 v11
  exp v12

/-- The body's result over those: the exponentials divided by their row sums, against the values. -/
def attnV : FVec Ideal S1x1x256x64 .bf16 :=
  have v5 : FVec Ideal S2048x64 .bf16 := shapeCast S2048x64 v shapeCasts_S1x1x2048x64_S2048x64
  have v13 : FVec Ideal S256x2048 .f32 := expsV q k
  have v14 : FVec Ideal S256 .f32 := multiReduction .add [1] S256 v13 0x00000000#32 reduces_S256x2048_S256 (.inl rfl) rfl
  have v15 : FVec Ideal S256x1 .f32 := shapeCast S256x1 v14 shapeCasts_S256_S256x1
  have v16 : FVec Ideal S256x2048 .f32 := broadcastTo S256x2048 v15 broadcasts_S256x1_S256x2048
  have v17 : FVec Ideal S256x2048 .f32 := divf v13 v16
  have v18 : FVec Ideal S256x2048 .bf16 := truncf .bf16 v17 bitsLt_bf16_f32
  have cst_14 : FVec Ideal S256x64 .f32 := constant S256x64 .f32 0x00000000#32
  have v19 : FVec Ideal S256x64 .f32 := matmul dot_S256x2048_S2048x64_S256x64_1_0_0_1_n_n none v18 v5 cst_14
  have v20 : FVec Ideal S256x64 .bf16 := truncf .bf16 v19 bitsLt_bf16_f32
  shapeCast S1x1x256x64 v20 shapeCasts_S256x64_S1x1x256x64

/-- The payload is that composition. -/
theorem k1_pay1_eq : k1_pay1 (F := Ideal) q k v = attnV q k v := by
  unfold k1_pay1 attnV expsV scoresV
  rfl

end Block

section BlockValues
variable (q : Vec Ideal S1x1x256x64 .bf16) (k v : Vec Ideal S1x1x2048x64 .bf16)

/-- The body's scores at `(s, t)`: the casts drop the two unit axes, the product's accumulator is the zero word. -/
theorem scoresV_apply (s : Fin 256) (t : Fin 2048) : scoresV q k (ix2 s t) = bsc q k s t := by
  unfold scoresV bsc
  simp only [matmul]
  rw [mulf_apply, broadcast_apply, Ideal.matmul_constant_zero_apply,
    ← Equiv.sum_comp (contrEquiv1 dot_S256x64_S2048x64_S256x2048_1_1_0_0_n_n 64 rfl rfl).symm]
  refine congrArg (fun z => z * Ideal.ofBits .f32 0x3E000000#32) (Finset.sum_congr rfl fun d _ => ?_)
  have hk := contrEquiv1_symm_val dot_S256x64_S2048x64_S256x2048_1_1_0_0_n_n 64 rfl rfl d
  have el : dot_S256x64_S2048x64_S256x2048_1_1_0_0_n_n.lhsIdx (ix2 s t) ((contrEquiv1 dot_S256x64_S2048x64_S256x2048_1_1_0_0_n_n 64 rfl rfl).symm d) = ix2 s d := funext fun a => Fin.ext (by
    match a with
    | ⟨0, _⟩ => exact dot1_lhs_free _ _
    | ⟨1, _⟩ => exact (dot1_lhs_contr _ _).trans hk)
  have er : dot_S256x64_S2048x64_S256x2048_1_1_0_0_n_n.rhsIdx (ix2 s t) ((contrEquiv1 dot_S256x64_S2048x64_S256x2048_1_1_0_0_n_n 64 rfl rfl).symm d) = ix2 t d := funext fun a => Fin.ext (by
    match a with
    | ⟨0, _⟩ => exact dot1_rhs_free _ _
    | ⟨1, _⟩ => exact (dot1_rhs_contr _ _).trans hk)
  rw [el, er, shapeCast_11ab_ab_apply, shapeCast_11ab_ab_apply]

/-- The body's exponentials at `(s, t)`: the row maximum, kept as a column and broadcast back, is the fold of `max` over
    the row from the value of the word of -∞. -/
theorem expsV_apply (s : Fin 256) (t : Fin 2048) : expsV q k (ix2 s t) = bee q k s t := by
  unfold expsV bee bmx
  show Ideal.exp (subf (scoresV q k) (broadcastTo S256x2048 (shapeCast S256x1 (multiReduction .maximumf [1] S256 (scoresV q k) 0xFF800000#32 reduces_S256x2048_S256 (.inl rfl) rfl) shapeCasts_S256_S256x1) broadcasts_S256x1_S256x2048) (ix2 s t)) = _
  rw [subf_apply, scoresV_apply]
  refine congrArg (fun z => Ideal.exp (bsc q k s t - z)) ?_
  refine (Cert.LibKeepdims.bcast_col_rowMax_apply (scoresV q k) 0xFF800000#32 reduces_S256x2048_S256 (.inl rfl) rfl shapeCasts_S256_S256x1 broadcasts_S256x1_S256x2048 s t).trans ?_
  exact congrArg (fun f => Finset.fold max (Ideal.ofBits .f32 0xFF800000#32) f (Finset.univ : Finset (Fin 2048)))
    (funext fun t' => scoresV_apply q k s t')

/-- The body's payload at row `s`, feature `d` of its block. -/
theorem attnPay_apply (s : Fin 256) (d : Fin 64) :
    k1_pay1 (F := Ideal) q k v (ix4 (0 : Fin 1) (0 : Fin 1) s d) = battn q k v s d := by
  rw [k1_pay1_eq]
  unfold attnV battn
  simp only [matmul]
  rw [shapeCast_ab_11ab_apply, truncf_apply, Ideal.matmul_constant_zero_apply,
    ← Equiv.sum_comp (contrEquiv1 dot_S256x2048_S2048x64_S256x64_1_0_0_1_n_n 2048 rfl rfl).symm]
  refine Finset.sum_congr rfl fun t _ => ?_
  have hk := contrEquiv1_symm_val dot_S256x2048_S2048x64_S256x64_1_0_0_1_n_n 2048 rfl rfl t
  have el : dot_S256x2048_S2048x64_S256x64_1_0_0_1_n_n.lhsIdx (ix2 s d) ((contrEquiv1 dot_S256x2048_S2048x64_S256x64_1_0_0_1_n_n 2048 rfl rfl).symm t) = ix2 s t := funext fun a => Fin.ext (by
    match a with
    | ⟨0, _⟩ => exact dot2_lhs_free _ _
    | ⟨1, _⟩ => exact (dot2_lhs_contr _ _).trans hk)
  have er : dot_S256x2048_S2048x64_S256x64_1_0_0_1_n_n.rhsIdx (ix2 s d) ((contrEquiv1 dot_S256x2048_S2048x64_S256x64_1_0_0_1_n_n 2048 rfl rfl).symm t) = ix2 t d := funext fun a => Fin.ext (by
    match a with
    | ⟨0, _⟩ => exact (dot2_rhs_contr _ _).trans hk
    | ⟨1, _⟩ => exact dot2_rhs_free _ _)
  rw [el, er, truncf_apply, divf_apply, expsV_apply, shapeCast_11ab_ab_apply]
  refine congrArg (fun z => Ideal.div (bee q k s t) z * v (ix4 (0 : Fin 1) (0 : Fin 1) t d)) ?_
  refine (Cert.LibKeepdims.bcast_col_rowSum_apply (expsV q k) 0x00000000#32 reduces_S256x2048_S256 (.inl rfl) rfl shapeCasts_S256_S256x1 broadcasts_S256x1_S256x2048 s t).trans ?_
  unfold bdn
  exact Finset.sum_congr rfl fun t' _ => expsV_apply q k s t'

end BlockValues

/-! ## A block's stages are the array's stages at the block's place -/

/-- If the query block's row `s` is row `r` of batch `b`, head `h` of the query array, and the key and value blocks are
    the keys and values of that batch and head, the block's attention value is the array's. -/
theorem battn_eq_attnAt (q : Vec Ideal S1x1x256x64 .bf16) (k v : Vec Ideal S1x1x2048x64 .bf16)
    (Q K W : (⟨4, ![2, 16, 2048, 64]⟩ : Shape).Idx → EReal) (b : Fin 2) (h : Fin 16) (r : Fin 2048) (s : Fin 256) (d : Fin 64)
    (hq : ∀ d' : Fin 64, q (ix4 (0 : Fin 1) (0 : Fin 1) s d') = Q (ix4 b h r d'))
    (hk : ∀ (t' : Fin 2048) (d' : Fin 64), k (ix4 (0 : Fin 1) (0 : Fin 1) t' d') = K (ix4 b h t' d'))
    (hv : ∀ (t' : Fin 2048) (d' : Fin 64), v (ix4 (0 : Fin 1) (0 : Fin 1) t' d') = W (ix4 b h t' d')) :
    battn q k v s d = attnAt Q K W b h r d := by
  unfold battn attnAt bdn dn bee ee bmx mx bsc sc
  simp only [hq, hk, hv]

/-! ## From blocks to the array -/

theorem zeros4_attn : (![0, 0, 0, 0] : Fin 4 → Nat) = fun _ => 0 := funext fun a => by fin_cases a <;> rfl

/-- The block indices over the 256 grid points: the queries' block is the output's; the keys' and values' block has the
    output's batch and head and is otherwise zero; the output's block is (batch, head, query block, 0) in range. -/
theorem blockIdx1 : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) ≤ 1 ∧ win1_3.index t (1 : Fin 4) ≤ 15 ∧ win1_3.index t (2 : Fin 4) ≤ 7 ∧ win1_3.index t (3 : Fin 4) = 0 :=
  (by decide +kernel : ∀ t : Fin grid1.N, _)

/-- Every (batch, head, query block) is some point's output block. -/
theorem blockOnto1 : ∀ (b : Fin 2) (h : Fin 16) (g : Fin 8), ∃ t : Fin cfg1.N, win1_3.index t = ![b.val, h.val, g.val, 0] :=
  (by decide +kernel : ∀ (b : Fin 2) (h : Fin 16) (g : Fin 8), ∃ t : Fin grid1.N, win1_3.index t = ![b.val, h.val, g.val, 0])

section
variable (V : (c : Dev nD) → (b : Ref sig .tc) → Buf (Elt Ideal) ((c : Thread nD τ).loc b))

/-- What point `t` writes back is block `t` of the whole attention of the arrays the region read. -/
theorem flushed1_eq (c : Dev nD) (t : Fin cfg1.N) :
    (dat1 (F := Ideal) V c).flushed 3 t
      = ((cfg1.win 3).blk t).view.read (Elt Ideal) (attnArr (V c main_v10) (V c main_v11) (V c main_v12)) := by
  show (cfg1.win 3).cut (grid1.coords t) ((dat1 (F := Ideal) V c).after 3 t) = _
  rw [after1_3]
  unfold out1_3
  rw [View.canon_unit_zero zeros4_attn]
  simp only [View.ld_unit_zero (S := S1x1x256x64) zeros4_attn, View.ld_unit_zero (S := S1x1x2048x64) zeros4_attn]
  obtain ⟨a0, a1, a2, a3, b0, b1, b2, b3, c0, c1, c2, c3, o0, o1, o2, o3⟩ := blockIdx1 t
  refine funext fun (j : S1x1x256x64.Idx) => ?_
  obtain ⟨u, u', s, d, rfl⟩ : ∃ (u u' : Fin 1) (s : Fin 256) (d : Fin 64), j = ix4 u u' s d := ⟨j 0, j 1, j 2, j 3, eq_ix4 j⟩
  obtain rfl : u = 0 := Subsingleton.elim _ _
  obtain rfl : u' = 0 := Subsingleton.elim _ _
  have hs : s.val < 256 := s.isLt
  -- the batch, the head, and the query row of the whole array that row `s` of block `t` is
  let bb : Fin 2 := ⟨win1_3.index t (0 : Fin 4), by omega⟩
  let hh : Fin 16 := ⟨win1_3.index t (1 : Fin 4), by omega⟩
  let r : Fin 2048 := ⟨win1_3.index t (2 : Fin 4) * 256 + s.val, by omega⟩
  have h3 : ((cfg1.win 3).blk t).view.emb (ix4 (0 : Fin 1) (0 : Fin 1) s d) = (ix4 bb hh r d : S2x16x2048x64.Idx) := funext fun a => Fin.ext (by
    match a with
    | ⟨0, _⟩ => show win1_3.index t (0 : Fin 4) * 1 + 1 * 0 = win1_3.index t (0 : Fin 4); omega
    | ⟨1, _⟩ => show win1_3.index t (1 : Fin 4) * 1 + 1 * 0 = win1_3.index t (1 : Fin 4); omega
    | ⟨2, _⟩ => show win1_3.index t (2 : Fin 4) * 256 + 1 * s.val = win1_3.index t (2 : Fin 4) * 256 + s.val; omega
    | ⟨3, _⟩ => show win1_3.index t (3 : Fin 4) * 64 + 1 * d.val = d.val; omega)
  have hq : ∀ d' : Fin 64, (iblk1 V c 0 t : Vec Ideal S1x1x256x64 .bf16) (ix4 (0 : Fin 1) (0 : Fin 1) s d')
      = (V c main_v10 : S2x16x2048x64.Idx → EReal) (ix4 bb hh r d') := fun d' => by
    show (V c main_v10 : S2x16x2048x64.Idx → EReal) (((cfg1.win 0).blk t).view.emb (ix4 (0 : Fin 1) (0 : Fin 1) s d')) = _
    refine congrArg _ (funext fun a => Fin.ext ?_)
    match a with
    | ⟨0, _⟩ => show win1_0.index t (0 : Fin 4) * 1 + 1 * 0 = win1_3.index t (0 : Fin 4); omega
    | ⟨1, _⟩ => show win1_0.index t (1 : Fin 4) * 1 + 1 * 0 = win1_3.index t (1 : Fin 4); omega
    | ⟨2, _⟩ => show win1_0.index t (2 : Fin 4) * 256 + 1 * s.val = win1_3.index t (2 : Fin 4) * 256 + s.val; omega
    | ⟨3, _⟩ => show win1_0.index t (3 : Fin 4) * 64 + 1 * d'.val = d'.val; omega
  have hk : ∀ (t' : Fin 2048) (d' : Fin 64), (iblk1 V c 1 t : Vec Ideal S1x1x2048x64 .bf16) (ix4 (0 : Fin 1) (0 : Fin 1) t' d')
      = (V c main_v11 : S2x16x2048x64.Idx → EReal) (ix4 bb hh t' d') := fun t' d' => by
    show (V c main_v11 : S2x16x2048x64.Idx → EReal) (((cfg1.win 1).blk t).view.emb (ix4 (0 : Fin 1) (0 : Fin 1) t' d')) = _
    refine congrArg _ (funext fun a => Fin.ext ?_)
    match a with
    | ⟨0, _⟩ => show win1_1.index t (0 : Fin 4) * 1 + 1 * 0 = win1_3.index t (0 : Fin 4); omega
    | ⟨1, _⟩ => show win1_1.index t (1 : Fin 4) * 1 + 1 * 0 = win1_3.index t (1 : Fin 4); omega
    | ⟨2, _⟩ => show win1_1.index t (2 : Fin 4) * 2048 + 1 * t'.val = t'.val; omega
    | ⟨3, _⟩ => show win1_1.index t (3 : Fin 4) * 64 + 1 * d'.val = d'.val; omega
  have hv : ∀ (t' : Fin 2048) (d' : Fin 64), (iblk1 V c 2 t : Vec Ideal S1x1x2048x64 .bf16) (ix4 (0 : Fin 1) (0 : Fin 1) t' d')
      = (V c main_v12 : S2x16x2048x64.Idx → EReal) (ix4 bb hh t' d') := fun t' d' => by
    show (V c main_v12 : S2x16x2048x64.Idx → EReal) (((cfg1.win 2).blk t).view.emb (ix4 (0 : Fin 1) (0 : Fin 1) t' d')) = _
    refine congrArg _ (funext fun a => Fin.ext ?_)
    match a with
    | ⟨0, _⟩ => show win1_2.index t (0 : Fin 4) * 1 + 1 * 0 = win1_3.index t (0 : Fin 4); omega
    | ⟨1, _⟩ => show win1_2.index t (1 : Fin 4) * 1 + 1 * 0 = win1_3.index t (1 : Fin 4); omega
    | ⟨2, _⟩ => show win1_2.index t (2 : Fin 4) * 2048 + 1 * t'.val = t'.val; omega
    | ⟨3, _⟩ => show win1_2.index t (3 : Fin 4) * 64 + 1 * d'.val = d'.val; omega
  show k1_pay1 (F := Ideal) (iblk1 V c 0 t) (iblk1 V c 1 t) (iblk1 V c 2 t) (ix4 (0 : Fin 1) (0 : Fin 1) s d)
      = attnArr (V c main_v10) (V c main_v11) (V c main_v12) (((cfg1.win 3).blk t).view.emb (ix4 (0 : Fin 1) (0 : Fin 1) s d))
  rw [h3, attnArr_apply]
  refine (attnPay_apply (iblk1 V c 0 t) (iblk1 V c 1 t) (iblk1 V c 2 t) s d).trans ?_
  exact battn_eq_attnAt (iblk1 V c 0 t) (iblk1 V c 1 t) (iblk1 V c 2 t) (V c main_v10) (V c main_v11) (V c main_v12) bb hh r s d hq hk hv

/-- An index of the output array lies in point `t`'s block exactly when each coordinate lies in the block's range. -/
theorem mem_blk1 (t : Fin cfg1.N) (i : S2x16x2048x64.Idx) :
    i ∈ ((cfg1.win 3).blk t).view.set ↔ ∀ a : Fin 4, win1_3.index t a * S1x1x256x64.size a ≤ (i a).val ∧ (i a).val < win1_3.index t a * S1x1x256x64.size a + S1x1x256x64.size a := by
  show i ∈ ((View.whole main_v13).slice (win1_3.rect t)).set ↔ _
  rw [View.set_slice_whole, Rect.mem_set_unit]
  exact Iff.rfl

/-- Every index of the output array is in the block of the point with its batch, its head, and query block `row / 256`. -/
theorem cover1 (i : S2x16x2048x64.Idx) : ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := blockOnto1 ⟨(i 0).val, hi0⟩ ⟨(i 1).val, hi1⟩ ⟨(i 2).val / 256, by omega⟩
  have q0 : win1_3.index t (0 : Fin 4) = (i 0).val := congrFun ht 0
  have q1 : win1_3.index t (1 : Fin 4) = (i 1).val := congrFun ht 1
  have q2 : win1_3.index t (2 : Fin 4) = (i 2).val / 256 := congrFun ht 2
  have q3 : win1_3.index t (3 : Fin 4) = 0 := congrFun ht 3
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 256 ≤ (i 2).val ∧ (i 2).val < win1_3.index t (2 : Fin 4) * 256 + 256; omega
  | ⟨3, _⟩ => show win1_3.index t (3 : Fin 4) * 64 ≤ (i 3).val ∧ (i 3).val < win1_3.index t (3 : Fin 4) * 64 + 64; omega

/-- After the region the output array is the whole softmax attention of the three arrays the region read. -/
theorem final1 (c : Dev nD) :
    (dat1 (F := Ideal) V c).arrAt 3 cfg1.N = attnArr (V c main_v10) (V c main_v11) (V c main_v12) :=
  (dat1 (F := Ideal) V c).arrAt_eq_of_cover 3 (attnArr (V c main_v10) (V c main_v11) (V c main_v12))
    (fun t _ => flushed1_eq V c t) cover1

end

end Cert.KernelIdeal.Hand

end
-- ==== Proof.KiVal2Pre.lean ====
/-
  The output-projection region, point by point, over the extended reals.

  The region's three pure values read at an index: the zero block; a block of the accumulator plus the product of a
  [512, 64] block of attention features with a [1024, 64] block of one head's output weight, contracted over the 64
  lanes; and the accumulator plus the bias row.  The block indices of the four windows at grid point `t` in closed
  form (`t = (b·4 + si)·16 + h`), and where an element of each window's block sits in its array.
-/
import proofs.«166712_j30709016166637_2_alg».proof.Proof.Gen.KernelIdeal.Launch
import proofs.«166712_j30709016166637_2_alg».proof.Proof.Gen.KernelIdeal.Skeleton
import proofs.«166712_j30709016166637_2_alg».proof.Proof.Gen.KernelIdeal.Points
import proofs.«166712_j30709016166637_2_alg».proof.Proof.AttnStages
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem

/-! ## The three pure values at an index -/

/-- The zero block. -/
theorem pay1_apply (p : Fin 512) (o : Fin 1024) : k2_pay1 (F := Ideal) (ix2 p o) = 0 := by
  show shapeCast S512x1024 (broadcast S512x1024 (Scalar.ofBits (F := Ideal) .f32 0x00000000#32)) shapeCasts_S512x1024_S512x1024
    (ix2 p o) = 0
  rw [shapeCast_self, broadcast_apply]
  exact Ideal.ofBits_zero_f32

/-- The contraction record of the region's product: rows of the left block against rows of the right block. -/
abbrev D2 : DotDims S512x64 S1024x64 S512x1024 := dot_S512x64_S1024x64_S512x1024_1_1_0_0_n_n

theorem lhs2_0 (i : S512x1024.Idx) (q : D2.contr.Idx) : (D2.lhsIdx i q 0).val = (i 0).val := by
  unfold DotDims.lhsIdx
  rw [dif_neg (show ¬(0 : Fin S512x64.rank) ∈ D2.lhsBatch by decide),
    dif_pos (show (0 : Fin S512x64.rank) ∈ D2.lhsNonContracting by decide)]
  rfl
theorem lhs2_1 (i : S512x1024.Idx) (q : D2.contr.Idx) : (D2.lhsIdx i q 1).val = (q ⟨0, by decide⟩).val :=
  D2.lhsIdx_val_of_single rfl i q
theorem rhs2_0 (i : S512x1024.Idx) (q : D2.contr.Idx) : (D2.rhsIdx i q 0).val = (i 1).val := by
  unfold DotDims.rhsIdx
  rw [dif_neg (show ¬(0 : Fin S1024x64.rank) ∈ D2.rhsBatch by decide),
    dif_pos (show (0 : Fin S1024x64.rank) ∈ D2.rhsNonContracting by decide)]
  rfl
theorem rhs2_1 (i : S512x1024.Idx) (q : D2.contr.Idx) : (D2.rhsIdx i q 1).val = (q ⟨0, by decide⟩).val :=
  D2.rhsIdx_val_of_single rfl i q

/-- The accumulating step at `(p, o)`: the accumulator there plus the contraction over the 64 lanes of row `p` of the
    feature block with row `o` of the weight block. -/
theorem pay2_apply (a : Vec Ideal S1x1x512x64 .bf16) (w : Vec Ideal S1x1024x64 .bf16) (acc : Vec Ideal S512x1024 .f32)
    (p : Fin 512) (o : Fin 1024) :
    k2_pay2 a w acc (ix2 p o)
      = acc (ix2 p o) + ∑ d : Fin 64, a (ix4 (0 : Fin 1) (0 : Fin 1) p d) * w (ix3 (0 : Fin 1) o d) := by
  show shapeCast S512x1024 (addf (acc : FVec Ideal S512x1024 .f32) (matmul (F := Ideal) D2 none
    (shapeCast S512x64 a shapeCasts_S1x1x512x64_S512x64 : FVec Ideal S512x64 .bf16)
    (shapeCast S1024x64 w shapeCasts_S1x1024x64_S1024x64 : FVec Ideal S1024x64 .bf16)
    (constant (F := Ideal) S512x1024 .f32 0x00000000#32))) shapeCasts_S512x1024_S512x1024 (ix2 p o) = _
  rw [shapeCast_self]
  show acc (ix2 p o) + FloatOps.matmul (F := Ideal) D2 none
    (shapeCast S512x64 a shapeCasts_S1x1x512x64_S512x64 : FVec Ideal S512x64 .bf16)
    (shapeCast S1024x64 w shapeCasts_S1x1024x64_S1024x64 : FVec Ideal S1024x64 .bf16)
    (constant (F := Ideal) S512x1024 .f32 0x00000000#32) (ix2 p o) = _
  rw [Ideal.matmul_constant_zero_apply, ← Equiv.sum_comp (contrEquiv1 D2 64 rfl rfl).symm]
  refine congrArg (acc (ix2 p o) + ·) (Finset.sum_congr rfl fun d _ => ?_)
  have hk := contrEquiv1_symm_val D2 64 rfl rfl d
  have hp := p.isLt; have ho := o.isLt; have hd := d.isLt
  have el : shapeCast S512x64 a shapeCasts_S1x1x512x64_S512x64 (D2.lhsIdx (ix2 p o) ((contrEquiv1 D2 64 rfl rfl).symm d))
      = a (ix4 (0 : Fin 1) (0 : Fin 1) p d) :=
    shapeCast_apply a shapeCasts_S1x1x512x64_S512x64 _ (ix4 (0 : Fin 1) (0 : Fin 1) p d) (by
      rw [Shape.rowMajor_val_four, Shape.rowMajor_val_two, lhs2_0, lhs2_1, hk]
      show ((0 * 1 + 0) * 512 + p.val) * 64 + d.val = p.val * 64 + d.val
      omega)
  have er : shapeCast S1024x64 w shapeCasts_S1x1024x64_S1024x64 (D2.rhsIdx (ix2 p o) ((contrEquiv1 D2 64 rfl rfl).symm d))
      = w (ix3 (0 : Fin 1) o d) :=
    shapeCast_apply w shapeCasts_S1x1024x64_S1024x64 _ (ix3 (0 : Fin 1) o d) (by
      rw [Shape.rowMajor_val_three, Shape.rowMajor_val_two, rhs2_0, rhs2_1, hk]
      show (0 * 1024 + o.val) * 64 + d.val = o.val * 64 + d.val
      omega)
  rw [el, er]

/-- The closing step at `(0, p, o)`: the accumulator at `(p, o)` plus the bias at `o`. -/
theorem pay3_apply (acc : Vec Ideal S512x1024 .f32) (bias : Vec Ideal S1x1024 .f32) (p : Fin 512) (o : Fin 1024) :
    k2_pay3 acc bias (ix3 (0 : Fin 1) p o) = acc (ix2 p o) + bias (ix2 (0 : Fin 1) o) := by
  have hp := p.isLt; have ho := o.isLt
  show shapeCast S1x512x1024 (addf (acc : FVec Ideal S512x1024 .f32) (broadcastTo S512x1024
    (shapeCast S1x1024 bias shapeCasts_S1x1024_S1x1024 : FVec Ideal S1x1024 .f32)
    broadcasts_S1x1024_S512x1024 : FVec Ideal S512x1024 .f32)) shapeCasts_S512x1024_S1x512x1024 (ix3 (0 : Fin 1) p o) = _
  rw [shapeCast_apply _ shapeCasts_S512x1024_S1x512x1024 (ix3 (0 : Fin 1) p o) (ix2 p o) (by
    rw [Shape.rowMajor_val_two, Shape.rowMajor_val_three]
    show p.val * 1024 + o.val = (0 * 512 + p.val) * 1024 + o.val
    omega)]
  show acc (ix2 p o) + (broadcastTo S512x1024 (shapeCast S1x1024 bias shapeCasts_S1x1024_S1x1024 : FVec Ideal S1x1024 .f32)
    broadcasts_S1x1024_S512x1024 : FVec Ideal S512x1024 .f32) (ix2 p o) = _
  rw [broadcastTo_apply _ broadcasts_S1x1024_S512x1024 (ix2 p o) (ix2 (0 : Fin 1) o) (fun a => match a with
    | ⟨0, _⟩ => by show 0 = if (1 : Nat) = 1 then 0 else p.val; rw [if_pos rfl]
    | ⟨1, _⟩ => by show o.val = if (1024 : Nat) = 1 then 0 else o.val; rw [if_neg (by decide)]), shapeCast_self]

/-! ## The windows' block indices along the grid -/

/-- Point `t` of the grid `[2, 4, 16]` is batch `t / 64`, row block `t / 16 mod 4`, head `t mod 16`; the feature
    window is at block `(batch, head, row block, 0)`, the weight window at `(head, 0, 0)`, the bias window at
    `(0, 0)` and the result window at `(batch, row block, 0)`. -/
theorem idx_facts2 : ∀ t : Fin cfg2.N,
    win2_0.index t (0 : Fin 4) = t.val / 64 ∧ win2_0.index t (1 : Fin 4) = t.val % 16
    ∧ win2_0.index t (2 : Fin 4) = t.val / 16 % 4 ∧ win2_0.index t (3 : Fin 4) = 0
    ∧ win2_1.index t (0 : Fin 3) = t.val % 16 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = t.val / 64 ∧ win2_3.index t (1 : Fin 3) = t.val / 16 % 4
    ∧ win2_3.index t (2 : Fin 3) = 0 :=
  (by decide +kernel : ∀ t : Fin grid2.N, _)

theorem lt_N2 (t : Fin cfg2.N) : t.val < 128 := lt_of_lt_of_eq t.isLt (show cfg2.N = 128 from N_2)

/-- The batch, row block and head of a grid point. -/
def ptB (t : Fin cfg2.N) : Fin 2 := ⟨t.val / 64, by have := lt_N2 t; omega⟩
def ptS (t : Fin cfg2.N) : Fin 4 := ⟨t.val / 16 % 4, by omega⟩
def ptH (t : Fin cfg2.N) : Fin 16 := ⟨t.val % 16, by omega⟩
/-- Row `p` of row block `si`. -/
def rowOf (si : Fin 4) (p : Fin 512) : Fin 2048 := ⟨si.val * 512 + p.val, by have := si.isLt; have := p.isLt; omega⟩

/-! ## Where a block's element sits in its array -/

/-- Element `(0, 0, p, d)` of the feature block at point `t` is element `(batch, head, 512·row block + p, d)` of the
    feature array. -/
theorem emb2_0 (t : Fin cfg2.N) (p : Fin 512) (d : Fin 64) :
    (((cfg2.win 0).blk t).view.emb (ix4 (0 : Fin 1) (0 : Fin 1) p d) : S2x16x2048x64.Idx)
      = ix4 (ptB t) (ptH t) (rowOf (ptS t) p) d := by
  obtain ⟨e00, e01, e02, e03, -⟩ := idx_facts2 t
  have hp := p.isLt; have hd := d.isLt
  funext a; apply Fin.ext
  match a with
  | ⟨0, _⟩ => show win2_0.index t (0 : Fin 4) * 1 + 1 * 0 = t.val / 64; omega
  | ⟨1, _⟩ => show win2_0.index t (1 : Fin 4) * 1 + 1 * 0 = t.val % 16; omega
  | ⟨2, _⟩ => show win2_0.index t (2 : Fin 4) * 512 + 1 * p.val = t.val / 16 % 4 * 512 + p.val; omega
  | ⟨3, _⟩ => show win2_0.index t (3 : Fin 4) * 64 + 1 * d.val = d.val; omega

/-- Element `(0, o, d)` of the weight block at point `t` is element `(head, o, d)` of the weight array. -/
theorem emb2_1 (t : Fin cfg2.N) (o : Fin 1024) (d : Fin 64) :
    (((cfg2.win 1).blk t).view.emb (ix3 (0 : Fin 1) o d) : S16x1024x64.Idx) = ix3 (ptH t) o d := by
  obtain ⟨-, -, -, -, e10, e11, e12, -⟩ := idx_facts2 t
  have ho := o.isLt; have hd := d.isLt
  funext a; apply Fin.ext
  match a with
  | ⟨0, _⟩ => show win2_1.index t (0 : Fin 3) * 1 + 1 * 0 = t.val % 16; omega
  | ⟨1, _⟩ => show win2_1.index t (1 : Fin 3) * 1024 + 1 * o.val = o.val; omega
  | ⟨2, _⟩ => show win2_1.index t (2 : Fin 3) * 64 + 1 * d.val = d.val; omega

/-- The bias window is the whole bias row at every point. -/
theorem emb2_2 (t : Fin cfg2.N) (o : Fin 1024) :
    (((cfg2.win 2).blk t).view.emb (ix2 (0 : Fin 1) o) : S1x1024.Idx) = ix2 (0 : Fin 1) o := by
  obtain ⟨-, -, -, -, -, -, -, e20, e21, -⟩ := idx_facts2 t
  have ho := o.isLt
  funext a; apply Fin.ext
  match a with
  | ⟨0, _⟩ => show win2_2.index t (0 : Fin 2) * 1 + 1 * 0 = 0; omega
  | ⟨1, _⟩ => show win2_2.index t (1 : Fin 2) * 1024 + 1 * o.val = o.val; omega

/-- Element `(0, p, o)` of the result block at point `t` is element `(batch, 512·row block + p, o)` of the result
    array. -/
theorem emb2_3 (t : Fin cfg2.N) (p : Fin 512) (o : Fin 1024) :
    (((cfg2.win 3).blk t).view.emb (ix3 (0 : Fin 1) p o) : S2x2048x1024.Idx) = ix3 (ptB t) (rowOf (ptS t) p) o := by
  obtain ⟨-, -, -, -, -, -, -, -, -, e30, e31, e32⟩ := idx_facts2 t
  have hp := p.isLt; have ho := o.isLt
  funext a; apply Fin.ext
  match a with
  | ⟨0, _⟩ => show win2_3.index t (0 : Fin 3) * 1 + 1 * 0 = t.val / 64; omega
  | ⟨1, _⟩ => show win2_3.index t (1 : Fin 3) * 512 + 1 * p.val = t.val / 16 % 4 * 512 + p.val; omega
  | ⟨2, _⟩ => show win2_3.index t (2 : Fin 3) * 1024 + 1 * o.val = o.val; omega

/-! ## The result window's blocks tile the result array -/

/-- An index of the result array is in point `t`'s block iff each coordinate is in the block's range on its axis. -/
theorem mem_blk2_3 (t : Fin cfg2.N) (i : S2x2048x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v15).slice (win2_3.rect t)).set ↔ _
  rw [View.set_slice_whole, Rect.mem_set_unit]
  exact Iff.rfl

/-- Row `r` of batch `b` is covered by the last point of its group of sixteen, which writes its block back. -/
theorem cover2_3 (i : S2x2048x1024.Idx) :
    ∃ t : Fin cfg2.N, (cfg2.win 3).flush t = true ∧ i ∈ ((cfg2.win 3).blk t).view.set := by
  have h0 : (i 0).val < 2 := (i 0).isLt
  have h1 : (i 1).val < 2048 := (i 1).isLt
  have h2 : (i 2).val < 1024 := (i 2).isLt
  have hN : ((i 0).val * 4 + (i 1).val / 512) * 16 + 15 < cfg2.N := by rw [show cfg2.N = 128 from N_2]; omega
  refine ⟨⟨((i 0).val * 4 + (i 1).val / 512) * 16 + 15, hN⟩, (flush2_3 _).mpr (by show (((i 0).val * 4 + (i 1).val / 512) * 16 + 15) % 16 = 15; omega), ?_⟩
  rw [mem_blk2_3]
  obtain ⟨-, -, -, -, -, -, -, -, -, e30, e31, e32⟩ := idx_facts2 ⟨((i 0).val * 4 + (i 1).val / 512) * 16 + 15, hN⟩
  have e30' : win2_3.index ⟨((i 0).val * 4 + (i 1).val / 512) * 16 + 15, hN⟩ (0 : Fin 3) = (((i 0).val * 4 + (i 1).val / 512) * 16 + 15) / 64 := e30
  have e31' : win2_3.index ⟨((i 0).val * 4 + (i 1).val / 512) * 16 + 15, hN⟩ (1 : Fin 3) = (((i 0).val * 4 + (i 1).val / 512) * 16 + 15) / 16 % 4 := e31
  intro a
  match a with
  | ⟨0, _⟩ =>
    show win2_3.index _ (0 : Fin 3) * 1 ≤ (i 0).val ∧ (i 0).val < win2_3.index _ (0 : Fin 3) * 1 + 1
    omega
  | ⟨1, _⟩ =>
    show win2_3.index _ (1 : Fin 3) * 512 ≤ (i 1).val ∧ (i 1).val < win2_3.index _ (1 : Fin 3) * 512 + 512
    omega
  | ⟨2, _⟩ =>
    show win2_3.index _ (2 : Fin 3) * 1024 ≤ (i 2).val ∧ (i 2).val < win2_3.index _ (2 : Fin 3) * 1024 + 1024
    omega

end Cert.KernelIdeal.Hand

end
-- ==== Proof.KiVal2.lean ====
/-
  The value of the output-projection region over the extended reals: the result array after the region is the
  output projection of the feature array against the per-head weight, summed over heads and lanes, plus the bias row.

  Along a run of sixteen consecutive grid points (one batch, one block of 512 rows, heads 0..15) the scratch holds the
  partial sums over the heads seen so far; the last point of the run adds the bias row and writes the block back, and
  those blocks tile the result array.
-/
import proofs.«166712_j30709016166637_2_alg».proof.Proof.KiR2
import proofs.«166712_j30709016166637_2_alg».proof.Proof.KiVal2Pre

noncomputable section

namespace Cert.KernelIdeal.Hand

open Cert.KernelIdeal Cert.KernelIdeal.Gen Cert.AttnStages
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The blocks the body reads, in their arrays -/

theorem iblk2_0_apply (c : Dev nD) (t : Fin cfg2.N) (p : Fin 512) (d : Fin 64) :
    iblk2 V c 0 t (ix4 (0 : Fin 1) (0 : Fin 1) p d) = V c main_v13 (ix4 (ptB t) (ptH t) (rowOf (ptS t) p) d) := by
  show V c main_v13 (((cfg2.win 0).blk t).view.emb (ix4 (0 : Fin 1) (0 : Fin 1) p d)) = _
  exact congrArg (V c main_v13) (emb2_0 t p d)

theorem iblk2_1_apply (c : Dev nD) (t : Fin cfg2.N) (o : Fin 1024) (d : Fin 64) :
    iblk2 V c 1 t (ix3 (0 : Fin 1) o d) = V c main_v3 (ix3 (ptH t) o d) := by
  show V c main_v3 (((cfg2.win 1).blk t).view.emb (ix3 (0 : Fin 1) o d)) = _
  exact congrArg (V c main_v3) (emb2_1 t o d)

theorem iblk2_2_apply (c : Dev nD) (t : Fin cfg2.N) (o : Fin 1024) :
    iblk2 V c 2 t (ix2 (0 : Fin 1) o) = V c main_v14 (ix2 (0 : Fin 1) o) := by
  show V c main_v14 (((cfg2.win 2).blk t).view.emb (ix2 (0 : Fin 1) o)) = _
  exact congrArg (V c main_v14) (emb2_2 t o)

/-! ## The accumulator along a run of sixteen points -/

/-- Head `h`'s addend at row `p` of row block `si` of batch `b`, column `o` (`h` taken modulo 16). -/
def headTerm (A : S2x16x2048x64.Idx → EReal) (W : S16x1024x64.Idx → EReal) (b : Fin 2) (si : Fin 4) (p : Fin 512)
    (o : Fin 1024) (h : ℕ) : EReal :=
  ∑ d : Fin 64, A (ix4 b (⟨h % 16, Nat.mod_lt _ (by decide)⟩ : Fin 16) (rowOf si p) d)
    * W (ix3 (⟨h % 16, Nat.mod_lt _ (by decide)⟩ : Fin 16) o d)

/-- One step of the body at point `t`: the accumulator plus the addend of the point's head. -/
theorem step2 (c : Dev nD) (t : Fin cfg2.N) (acc : Vec Ideal S512x1024 .f32) (p : Fin 512) (o : Fin 1024) :
    k2_pay2 (iblk2 V c 0 t) (iblk2 V c 1 t) acc (ix2 p o)
      = acc (ix2 p o) + headTerm (V c main_v13) (V c main_v3) (ptB t) (ptS t) p o t.val := by
  refine (pay2_apply (iblk2 V c 0 t) (iblk2 V c 1 t) acc p o).trans ?_
  refine congrArg (acc (ix2 p o) + ·) (Finset.sum_congr rfl fun d _ => ?_)
  rw [iblk2_0_apply, iblk2_1_apply]
  rfl

/-- After the point at offset `j` of its run the scratch holds the sum of the addends of heads `0..j`. -/
theorem acc2_apply (c : Dev nD) : ∀ (j : ℕ) (t : Fin cfg2.N), t.val % 16 = j → ∀ (p : Fin 512) (o : Fin 1024),
    acc2 V c t.val t.isLt (ix2 p o)
      = ∑ h ∈ Finset.range (j + 1), headTerm (V c main_v13) (V c main_v3) (ptB t) (ptS t) p o h
  | 0, t, ht, p, o => by
    rw [acc2_first V c t ht, step2, pay1_apply, zero_add, Finset.sum_range_one]
    unfold headTerm
    have e : t.val % 16 = 0 % 16 := by omega
    simp only [e]
  | j + 1, t, ht, p, o => by
    have hN := lt_N2 t
    have hne : t.val % 16 ≠ 0 := by omega
    have hlt : t.val - 1 < cfg2.N := Nat.lt_of_le_of_lt (Nat.sub_le _ _) t.isLt
    have ih := acc2_apply c j ⟨t.val - 1, hlt⟩ (by show (t.val - 1) % 16 = j; omega) p o
    have eB : ptB ⟨t.val - 1, hlt⟩ = ptB t := Fin.ext (by show (t.val - 1) / 64 = t.val / 64; omega)
    have eS : ptS ⟨t.val - 1, hlt⟩ = ptS t := Fin.ext (by show (t.val - 1) / 16 % 4 = t.val / 16 % 4; omega)
    rw [eB, eS] at ih
    rw [acc2_step V c t hne, step2, Finset.sum_range_succ _ (j + 1)]
    refine congrArg₂ (· + ·) ih ?_
    unfold headTerm
    have e : t.val % 16 = (j + 1) % 16 := by omega
    simp only [e]

/-- The output projection without its bias: the sum over the sixteen heads and the 64 lanes of each. -/
def headSum (A : S2x16x2048x64.Idx → EReal) (W : S16x1024x64.Idx → EReal) (b : Fin 2) (s : Fin 2048) (o : Fin 1024) : EReal :=
  ∑ h : Fin 16, ∑ d : Fin 64, A (ix4 b h s d) * W (ix3 h o d)

/-- At the last point of a run the scratch holds the sum over all sixteen heads. -/
theorem acc2_last (c : Dev nD) (t : Fin cfg2.N) (ht : t.val % 16 = 15) (p : Fin 512) (o : Fin 1024) :
    acc2 V c t.val t.isLt (ix2 p o) = headSum (V c main_v13) (V c main_v3) (ptB t) (rowOf (ptS t) p) o := by
  rw [acc2_apply V c 15 t ht p o, Finset.sum_range]
  unfold headSum
  refine Finset.sum_congr rfl fun h _ => ?_
  unfold headTerm
  have e : (⟨h.val % 16, Nat.mod_lt _ (by decide)⟩ : Fin 16) = h := Fin.ext (Nat.mod_eq_of_lt h.isLt)
  rw [e]

/-! ## What a flushing point writes back, and the result array -/

/-- The point that closes a run writes back its block of the output projection. -/
theorem flushed2_eq (c : Dev nD) (t : Fin cfg2.N) (ht : t.val % 16 = 15) :
    (dat2 V c).flushed 3 t
      = ((cfg2.win 3).blk t).view.read (Elt Ideal) (outArr (V c main_v13) (V c main_v3) (V c main_v14)) := by
  show (cfg2.win 3).cut (grid2.coords t) ((dat2 V c).after 3 t) = _
  rw [after2_3]
  refine funext fun (j : S1x512x1024.Idx) => ?_
  obtain ⟨z, p, o, rfl⟩ : ∃ (z : Fin 1) (p : Fin 512) (o : Fin 1024), j = ix3 z p o := ⟨j 0, j 1, j 2, eq_ix3 j⟩
  obtain rfl : z = 0 := Fin.eq_zero z
  show k2_pay3 (acc2 V c t.val t.isLt) (iblk2 V c 2 t) (ix3 (0 : Fin 1) p o)
    = outArr (V c main_v13) (V c main_v3) (V c main_v14) (((cfg2.win 3).blk t).view.emb (ix3 (0 : Fin 1) p o))
  rw [emb2_3, outArr_apply]
  refine (pay3_apply (acc2 V c t.val t.isLt) (iblk2 V c 2 t) p o).trans ?_
  rw [acc2_last V c t ht, iblk2_2_apply]
  rfl

/-- The result array after the region. -/
theorem final2 (V : (c : Dev nD) → (b : Ref sig .tc) → Buf (Elt Ideal) ((c : Thread nD τ).loc b)) (c : Dev nD) :
    (dat2 (F := Ideal) V c).arrAt 3 cfg2.N = Cert.AttnStages.outArr (V c main_v13) (V c main_v3) (V c main_v14) :=
  (dat2 (F := Ideal) V c).arrAt_eq_of_cover 3 _ (fun t hf => flushed2_eq V c t ((flush2_3 t).mp hf)) cover2_3

end Cert.KernelIdeal.Hand

end
-- ==== Proof.LibRows4.lean ====
/-
  General lemmas about a stack of stacks of matrices `[n, m, a, b]` reduced along its last axis, read at a row.

  * The reduced index `(i, q, p)` with coordinate `k` put back is `(i, q, p, k)`.
  * The host's reduction with a maximum body, at `(i, q, p)`, is at the extended reals the fold of `max` over
    `k ↦ x (i, q, p, k)` from the initial value.
-/
import Idealize.ShloMosaic.Lib.Pipeline.Value
import Idealize.ShloMosaic.Lib.ValueIdx
import Idealize.ShloMosaic.PureOps.Ideal.Laws

noncomputable section

namespace Cert.LibRows4

open Idealize.ShloMosaic Idealize.ShloMosaic.ValueIdx

/-- Reducing `[n, m, a, b]` along its last axis: `(i, q, p)` with coordinate `k` put back is `(i, q, p, k)`. -/
theorem lift_row4 {n m a b : ℕ} (h : (⟨4, ![n, m, a, b]⟩ : Shape).Reduces [3] (⟨3, ![n, m, a]⟩ : Shape)) (i : Fin n) (q : Fin m)
    (p : Fin a) (k : Fin ((⟨4, ![n, m, a, b]⟩ : Shape).size 3)) :
    h.lift (ix3 i q p) k = ix4 i q p (⟨k.val, k.isLt⟩ : Fin b) := by
  funext c; apply Fin.ext
  fin_cases c <;> rfl

variable {φ : FTy}

/-- The host's reduction with a maximum body along the last axis of `[n, m, a, b]`, at `(i, q, p)`: the fold of
    `max` over that row from the initial value. -/
theorem hostRowMax4_apply {n m a b : ℕ} {u : Shape} (x : FVec Ideal ⟨4, ![n, m, a, b]⟩ φ) (init : u.Idx → Ideal φ)
    (h' : (⟨4, ![n, m, a, b]⟩ : Shape).ReducesTo [3] (⟨3, ![n, m, a]⟩ : Shape))
    (h : (⟨4, ![n, m, a, b]⟩ : Shape).Reduces [3] (⟨3, ![n, m, a]⟩ : Shape)) (hu : 0 < u.numel) (i : Fin n) (q : Fin m)
    (p : Fin a) :
    Host.reduce FloatOps.maximumf x init h' hu (ix3 i q p)
      = (Finset.univ : Finset (Fin b)).fold max (init (Shape.Idx.first hu)) fun k => x (ix4 i q p k) := by
  rw [Host.reduce_eq_fold_single FloatOps.maximumf x init h' h hu]
  exact congrArg (fun f => Finset.fold max (init (Shape.Idx.first hu)) f (Finset.univ : Finset (Fin b)))
    (funext fun k => congrArg x (lift_row4 h i q p k))

end Cert.LibRows4

end
-- ==== Proof.RefValue.lean ====
/-
  The reference program's result, index by index, is the attention function of `AttnSpec`.

  Each lemma reads one stage of the reference at an index written from its coordinates and identifies it with the
  matching stage of the specification: the fused projection, its split into queries, keys and values, the scaled
  scores, the row maximum, the shifted exponentials and their sum, the weighted values, and the output projection.
-/
import proofs.«166712_j30709016166637_2_alg».proof.Proof.Gen.ReferenceIdeal.Read
import proofs.«166712_j30709016166637_2_alg».proof.Proof.AttnSpec
import proofs.«166712_j30709016166637_2_alg».proof.Proof.LibRows4
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.AttnSpec Idealize.ShloMosaic Idealize.ShloMosaic.ValueIdx

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-! ## The fused projection -/

/-- The fused projection at `(b, s, o)`: the contraction of row `(b, s)` of the activations with row `o` of the
    weight, plus the bias at `o`. -/
theorem v3_apply (b : Fin 2) (s : Fin 2048) (o : Fin 3072) :
    val_main_v3 (F := Ideal) x0 x1 x2 (ix3 b s o) = qkv x0 x1 x2 b s o := by
  have el : ∀ k : Fin 1024, lidx_main_v0 (ix3 b s o) k = ix3 b s k := fun k => funext fun a => by
    match a with | ⟨0, _⟩ => rfl | ⟨1, _⟩ => rfl | ⟨2, _⟩ => rfl
  have er : ∀ k : Fin 1024, ridx_main_v0 (ix3 b s o) k = ix2 o k := fun k => funext fun a => by
    match a with | ⟨0, _⟩ => rfl | ⟨1, _⟩ => rfl
  have eb : idx_main_v1 (idx_main_v2 (ix3 b s o)) = ix1 o := funext fun a => by
    match a with | ⟨0, _⟩ => rfl
  rw [val_main_v3_apply, val_main_v0_apply, val_main_v2_apply, val_main_v1_apply, eb]
  simp only [el, er, Ideal.addf_def]
  rfl

/-! ## Heads: the reshape to 16 heads of 192 lanes, the transpose, and the three slices -/

/-- Row-major arithmetic of the reshape `[2, 2048, 3072] → [2, 2048, 16, 192]`: lane `c` of head `h` is channel
    `192·h + c`. -/
theorem idx4_ix (b : Fin 2) (s : Fin 2048) (h : Fin 16) (c : Fin 192) :
    idx_main_v4 (ix4 b s h c)
      = ix3 b s (⟨h.val * 192 + c.val, by have := h.isLt; have := c.isLt; omega⟩ : Fin 3072) := by
  have hb := b.isLt; have hs := s.isLt; have hh := h.isLt; have hc := c.isLt
  funext a; apply Fin.ext
  match a with
  | ⟨0, _⟩ => show (((b.val * 2048 + s.val) * 16 + h.val) * 192 + c.val) / 6291456 = b.val; omega
  | ⟨1, _⟩ => show (((b.val * 2048 + s.val) * 16 + h.val) * 192 + c.val) / 3072 % 2048 = s.val; omega
  | ⟨2, _⟩ => show (((b.val * 2048 + s.val) * 16 + h.val) * 192 + c.val) % 3072 = h.val * 192 + c.val; omega

/-- The transposed array at `(b, h, s, c)`: channel `192·h + c` of the fused projection at `(b, s)`. -/
theorem v5_apply (b : Fin 2) (h : Fin 16) (s : Fin 2048) (c : Fin 192) :
    val_main_v5 (F := Ideal) x0 x1 x2 (ix4 b h s c)
      = qkv x0 x1 x2 b s (⟨h.val * 192 + c.val, by have := h.isLt; have := c.isLt; omega⟩ : Fin 3072) := by
  have e5 : idx_main_v5 (ix4 b h s c) = ix4 b s h c := funext fun a => by
    match a with | ⟨0, _⟩ => rfl | ⟨1, _⟩ => rfl | ⟨2, _⟩ => rfl | ⟨3, _⟩ => rfl
  rw [val_main_v5_apply, val_main_v4_apply, e5, idx4_ix, v3_apply]

/-- The queries: lanes `0..63` of each head. -/
theorem v6_apply (b : Fin 2) (h : Fin 16) (s : Fin 2048) (d : Fin 64) :
    val_main_v6 (F := Ideal) x0 x1 x2 (ix4 b h s d) = qkv x0 x1 x2 b s (chan h 0 (by omega) d) := by
  have e : idx_main_v6 (ix4 b h s d) = ix4 b h s (⟨d.val, by have := d.isLt; omega⟩ : Fin 192) := funext fun a => by
    match a with | ⟨0, _⟩ => rfl | ⟨1, _⟩ => rfl | ⟨2, _⟩ => rfl | ⟨3, _⟩ => rfl
  rw [val_main_v6_apply, e, v5_apply]
  exact congrArg (qkv x0 x1 x2 b s) (Fin.ext (by show h.val * 192 + d.val = h.val * 192 + 0 + d.val; omega))

/-- The keys: lanes `64..127` of each head. -/
theorem v7_apply (b : Fin 2) (h : Fin 16) (s : Fin 2048) (d : Fin 64) :
    val_main_v7 (F := Ideal) x0 x1 x2 (ix4 b h s d) = qkv x0 x1 x2 b s (chan h 64 (by omega) d) := by
  have e : idx_main_v7 (ix4 b h s d) = ix4 b h s (⟨64 + d.val, by have := d.isLt; omega⟩ : Fin 192) := funext fun a => by
    match a with | ⟨0, _⟩ => rfl | ⟨1, _⟩ => rfl | ⟨2, _⟩ => rfl | ⟨3, _⟩ => rfl
  rw [val_main_v7_apply, e, v5_apply]
  exact congrArg (qkv x0 x1 x2 b s) (Fin.ext (by show h.val * 192 + (64 + d.val) = h.val * 192 + 64 + d.val; omega))

/-- The values: lanes `128..191` of each head. -/
theorem v8_apply (b : Fin 2) (h : Fin 16) (s : Fin 2048) (d : Fin 64) :
    val_main_v8 (F := Ideal) x0 x1 x2 (ix4 b h s d) = qkv x0 x1 x2 b s (chan h 128 (by omega) d) := by
  have e : idx_main_v8 (ix4 b h s d) = ix4 b h s (⟨128 + d.val, by have := d.isLt; omega⟩ : Fin 192) := funext fun a => by
    match a with | ⟨0, _⟩ => rfl | ⟨1, _⟩ => rfl | ⟨2, _⟩ => rfl | ⟨3, _⟩ => rfl
  rw [val_main_v8_apply, e, v5_apply]
  exact congrArg (qkv x0 x1 x2 b s) (Fin.ext (by show h.val * 192 + (128 + d.val) = h.val * 192 + 128 + d.val; omega))

/-! ## Scores -/

/-- The scaled score at `(b, h, q, k)`: the query–key contraction over the 64 lanes, divided by `√64`. -/
theorem v12_apply (b : Fin 2) (h : Fin 16) (q k : Fin 2048) :
    val_main_v12 (F := Ideal) x0 x1 x2 (ix4 b h q k) = score x0 x1 x2 b h q k := by
  have el : ∀ d : Fin 64, lidx_main_v9 (ix4 b h q k) d = ix4 b h q d := fun d => funext fun a => by
    match a with | ⟨0, _⟩ => rfl | ⟨1, _⟩ => rfl | ⟨2, _⟩ => rfl | ⟨3, _⟩ => rfl
  have er : ∀ d : Fin 64, ridx_main_v9 (ix4 b h q k) d = ix4 b h k d := fun d => funext fun a => by
    match a with | ⟨0, _⟩ => rfl | ⟨1, _⟩ => rfl | ⟨2, _⟩ => rfl | ⟨3, _⟩ => rfl
  rw [val_main_v12_apply, val_main_v9_apply, val_main_v11_apply, val_main_v10_apply, val_main_cst_apply]
  simp only [el, er, v6_apply, v7_apply, Ideal.hostDivf_def, Ideal.hostUnary_sqrt_def, Ideal.ofBits_def]
  rw [div_sqrt64]
  rfl

/-! ## The row maximum -/

/-- The row maximum at `(b, h, q)`: the fold of `max` over the row of scores from `-∞`; taking the maximum with
    `-∞` once more changes nothing, since the fold is at least its starting value. -/
theorem v15_apply (b : Fin 2) (h : Fin 16) (q : Fin 2048) :
    val_main_v15 (F := Ideal) x0 x1 x2 (ix3 b h q) = rowmax x0 x1 x2 b h q := by
  have h13 : val_main_v13 (F := Ideal) x0 x1 x2 (ix3 b h q)
      = (Finset.univ : Finset (Fin 2048)).fold max (Ideal.ofBits .f32 0xFF800000#32) fun k => score x0 x1 x2 b h q k := by
    unfold val_main_v13
    rw [LibRows4.hostRowMax4_apply (val_main_v12 (F := Ideal) x0 x1 x2) (val_main_cst_0 (F := Ideal))
      reducesTo_S2x16x2048x2048_S2x16x2048_d3 (by decide) h_S_ b h q]
    simp only [v12_apply, val_main_cst_0_apply, Ideal.ofBits_def]
  rw [val_main_v15_apply, val_main_v14_apply, val_main_cst_1_apply, h13]
  simp only [Ideal.maximumf_def, Ideal.ofBits_def]
  exact max_eq_right ((Finset.le_fold_max _).mpr (Or.inl le_rfl))

/-! ## The softmax weights -/

/-- The shifted exponential at `(b, h, q, k)`. -/
theorem v19_apply (b : Fin 2) (h : Fin 16) (q k : Fin 2048) :
    val_main_v19 (F := Ideal) x0 x1 x2 (ix4 b h q k) = ex x0 x1 x2 b h q k := by
  have e : idx_main_v16 (idx_main_v17 (ix4 b h q k)) = ix3 b h q := funext fun a => by
    match a with | ⟨0, _⟩ => rfl | ⟨1, _⟩ => rfl | ⟨2, _⟩ => rfl
  rw [val_main_v19_apply, val_main_v18_apply, val_main_v17_apply, val_main_v16_apply, e, v12_apply, v15_apply]
  simp only [Ideal.hostUnary_exp_def, Ideal.subf_def]
  rfl

/-- The normaliser at `(b, h, q)`: the sum of the row of shifted exponentials (the reduction starts from zero). -/
theorem v20_apply (b : Fin 2) (h : Fin 16) (q : Fin 2048) :
    val_main_v20 (F := Ideal) x0 x1 x2 (ix3 b h q) = den x0 x1 x2 b h q := by
  have e : ∀ k : Fin 2048, idx_main_v20 (ix3 b h q) k = ix4 b h q k := fun k => funext fun a => by
    match a with | ⟨0, _⟩ => rfl | ⟨1, _⟩ => rfl | ⟨2, _⟩ => rfl | ⟨3, _⟩ => rfl
  rw [val_main_v20_apply, val_main_cst_2_apply]
  simp only [e, v19_apply, Ideal.ofBits_def, Ideal.ofBits_zero_f32, zero_add]
  rfl

/-- The softmax weight at `(b, h, q, k)`. -/
theorem v23_apply (b : Fin 2) (h : Fin 16) (q k : Fin 2048) :
    val_main_v23 (F := Ideal) x0 x1 x2 (ix4 b h q k) = Ideal.div (ex x0 x1 x2 b h q k) (den x0 x1 x2 b h q) := by
  have e : idx_main_v21 (idx_main_v22 (ix4 b h q k)) = ix3 b h q := funext fun a => by
    match a with | ⟨0, _⟩ => rfl | ⟨1, _⟩ => rfl | ⟨2, _⟩ => rfl
  rw [val_main_v23_apply, val_main_v22_apply, val_main_v21_apply, e, v19_apply, v20_apply]
  rfl

/-! ## The weighted values -/

/-- The attention output at `(b, h, q, d)`: the softmax weights of row `q` against lane `d` of the values. -/
theorem v24_apply (b : Fin 2) (h : Fin 16) (q : Fin 2048) (d : Fin 64) :
    val_main_v24 (F := Ideal) x0 x1 x2 (ix4 b h q d) = att x0 x1 x2 b h q d := by
  have el : ∀ k : Fin 2048, lidx_main_v24 (ix4 b h q d) k = ix4 b h q k := fun k => funext fun a => by
    match a with | ⟨0, _⟩ => rfl | ⟨1, _⟩ => rfl | ⟨2, _⟩ => rfl | ⟨3, _⟩ => rfl
  have er : ∀ k : Fin 2048, ridx_main_v24 (ix4 b h q d) k = ix4 b h k d := fun k => funext fun a => by
    match a with | ⟨0, _⟩ => rfl | ⟨1, _⟩ => rfl | ⟨2, _⟩ => rfl | ⟨3, _⟩ => rfl
  rw [val_main_v24_apply]
  simp only [el, er, v23_apply, v8_apply]
  rfl

/-! ## The output projection -/

/-- A sum over the 1024 features is the sum over the 16 heads of the sums over the 64 lanes of each. -/
theorem sum_col {M : Type} [AddCommMonoid M] (f : Fin 1024 → M) :
    ∑ j : Fin 1024, f j = ∑ h : Fin 16, ∑ d : Fin 64, f (col h d) := by
  calc ∑ j : Fin 1024, f j
      = ∑ p : Fin 16 × Fin 64, f ((finProdFinEquiv : Fin 16 × Fin 64 ≃ Fin (16 * 64)) p) :=
        (Equiv.sum_comp (finProdFinEquiv : Fin 16 × Fin 64 ≃ Fin (16 * 64)) f).symm
    _ = ∑ p : Fin 16 × Fin 64, f (col p.1 p.2) :=
        Finset.sum_congr rfl fun p _ => congrArg f (Fin.ext (by
          show p.2.val + 64 * p.1.val = p.1.val * 64 + p.2.val; omega))
    _ = ∑ h : Fin 16, ∑ d : Fin 64, f (col h d) := Fintype.sum_prod_type _

/-- The attention features at `(b, s, j)`: feature `j` is lane `j mod 64` of head `j / 64`. -/
theorem v26_apply (b : Fin 2) (s : Fin 2048) (h : Fin 16) (d : Fin 64) :
    val_main_v26 (F := Ideal) x0 x1 x2 (ix3 b s (col h d)) = att x0 x1 x2 b h s d := by
  have hb := b.isLt; have hs := s.isLt; have hh := h.isLt; have hd := d.isLt
  have e6 : idx_main_v26 (ix3 b s (col h d)) = ix4 b s h d := by
    funext a; apply Fin.ext
    match a with
    | ⟨0, _⟩ => show ((b.val * 2048 + s.val) * 1024 + (h.val * 64 + d.val)) / 2097152 = b.val; omega
    | ⟨1, _⟩ => show ((b.val * 2048 + s.val) * 1024 + (h.val * 64 + d.val)) / 1024 % 2048 = s.val; omega
    | ⟨2, _⟩ => show ((b.val * 2048 + s.val) * 1024 + (h.val * 64 + d.val)) / 64 % 16 = h.val; omega
    | ⟨3, _⟩ => show ((b.val * 2048 + s.val) * 1024 + (h.val * 64 + d.val)) % 64 = d.val; omega
  have e5 : idx_main_v25 (ix4 b s h d) = ix4 b h s d := funext fun a => by
    match a with | ⟨0, _⟩ => rfl | ⟨1, _⟩ => rfl | ⟨2, _⟩ => rfl | ⟨3, _⟩ => rfl
  rw [val_main_v26_apply, e6, val_main_v25_apply, e5, v24_apply]

/-- The result at `(b, s, o)`. -/
theorem v30_apply (b : Fin 2) (s : Fin 2048) (o : Fin 1024) :
    val_main_v30 (F := Ideal) x0 x1 x2 x3 x4 (ix3 b s o) = out x0 x1 x2 x3 x4 b s o := by
  have el : ∀ j : Fin 1024, lidx_main_v27 (ix3 b s o) j = ix3 b s j := fun j => funext fun a => by
    match a with | ⟨0, _⟩ => rfl | ⟨1, _⟩ => rfl | ⟨2, _⟩ => rfl
  have er : ∀ j : Fin 1024, ridx_main_v27 (ix3 b s o) j = ix2 o j := fun j => funext fun a => by
    match a with | ⟨0, _⟩ => rfl | ⟨1, _⟩ => rfl
  have eb : idx_main_v28 (idx_main_v29 (ix3 b s o)) = ix1 o := funext fun a => by
    match a with | ⟨0, _⟩ => rfl
  rw [val_main_v30_apply, val_main_v27_apply, val_main_v29_apply, val_main_v28_apply, eb]
  simp only [el, er, Ideal.addf_def]
  rw [sum_col fun j => val_main_v26 (F := Ideal) x0 x1 x2 (ix3 b s j) * x3 (ix2 o j)]
  simp only [v26_apply]
  rfl

/-- The reference program's result is the attention function of the specification. -/
theorem ref_eq (x0 : (⟨Cert.ReferenceIdeal.S2x2048x1024, .f32⟩ : BufTy).Contents (Elt Ideal))
    (x1 : (⟨Cert.ReferenceIdeal.S3072x1024, .f32⟩ : BufTy).Contents (Elt Ideal))
    (x2 : (⟨Cert.ReferenceIdeal.S3072, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal)) :
    Cert.ReferenceIdeal.Read.val_main_v30 (F := Ideal) x0 x1 x2 x3 x4 = Cert.AttnSpec.G x0 x1 x2 x3 x4 := by
  funext i
  obtain ⟨b, s, o, rfl⟩ : ∃ (b : Fin 2) (s : Fin 2048) (o : Fin 1024), i = ix3 b s o := ⟨i 0, i 1, i 2, eq_ix3 i⟩
  rw [G_apply]
  exact v30_apply x0 x1 x2 x3 x4 b s o

end Cert.ReferenceIdeal.RefValue

end
-- ==== Proof.lean ====
/-
  Multi-head attention as three kernel regions — a fused query/key/value projection, softmax attention per head,
  and an output projection accumulated over the heads — against the plain attention reference.

  Frames: the program is a chain of host stretches and kernel regions; each region's pipeline is run point by point
  from the contents it is entered with (the third region carrying its accumulator between points), and no stretch
  or region writes an argument array.  The same development serves the word-level program and its reading over the
  extended reals.  The reference is a line of host operations.

  Values, over the extended reals, where a change of float format is the identity: the projection block by block is
  x·Wᵀ + b; a row of scores scaled by 1/8 is shifted by its maximum, exponentiated, normalised and weights the
  values; the accumulator over a group of sixteen points is the sum over heads of the per-head products, to which
  the bias is added at the group's last point.  The reference divides the scores by √64, which is multiplying by
  1/8 on every extended real, and contracts the 1024 attention features in one sum, which is the sum head by head
  and lane by lane.  Only commutativity and associativity of addition join the two sides, so the finiteness of
  the inputs is never used.
-/
import proofs.«166712_j30709016166637_2_alg».proof.Defs
import proofs.«166712_j30709016166637_2_alg».proof.Proof.Gen.Kernel
import proofs.«166712_j30709016166637_2_alg».proof.Proof.Gen.KernelIdeal
import proofs.«166712_j30709016166637_2_alg».proof.Proof.Gen.ReferenceIdeal
import proofs.«166712_j30709016166637_2_alg».proof.Proof.Gen.Pre_finite_inputs
import proofs.«166712_j30709016166637_2_alg».proof.Proof.Gen.ReferenceIdeal.Run
import proofs.«166712_j30709016166637_2_alg».proof.Proof.Gen.ReferenceIdeal.Read
import proofs.«166712_j30709016166637_2_alg».proof.Proof.KRun
import proofs.«166712_j30709016166637_2_alg».proof.Proof.KiRun
import proofs.«166712_j30709016166637_2_alg».proof.Proof.KiCompose
import proofs.«166712_j30709016166637_2_alg».proof.Proof.KiVal0
import proofs.«166712_j30709016166637_2_alg».proof.Proof.KiVal1
import proofs.«166712_j30709016166637_2_alg».proof.Proof.KiVal2
import proofs.«166712_j30709016166637_2_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the attention specification of the argument arrays in their
    result: the kernel by the three regions' values chained through the host re-layouts, the reference stage by
    stage. -/
theorem algebraic : Cert.algebraic_KernelIdeal_ReferenceIdeal := by
  intro m ρ m' ρ' _ hagree
  refine ⟨fun c => Cert.AttnSpec.G (Cert.KernelIdeal.Hand.A0 m c) (Cert.KernelIdeal.Hand.A1 m c) (Cert.KernelIdeal.Hand.A2 m c)
    (Cert.KernelIdeal.Hand.A3 m c) (Cert.KernelIdeal.Hand.A4 m c), ?_, ?_⟩
  · exact (θ_run Cert.KernelIdeal.defs _ _).mono
      (fun r h c => ⟨(h c).1.trans (Cert.KernelIdeal.Hand.result_eq m c Cert.KernelIdeal.Hand.final0
        Cert.KernelIdeal.Hand.final1 Cert.KernelIdeal.Hand.final2), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
